-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3072x2048 : Shape := ⟨3, ![2, 3072, 2048]⟩
abbrev S2x2048x512 : Shape := ⟨3, ![2, 2048, 512]⟩
abbrev S_ : Shape := ⟨0, ![]⟩

class Facts : Prop where
  bcast_S_S2x3072x2048 : S_.BroadcastsInDim S2x3072x2048 (![] : Fin 0 → Fin S2x3072x2048.rank)
  reducesTo_S2x3072x2048_S_d0_1_2 : S2x3072x2048.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn {F : FTy → Type} [FloatOps F] (main_arg0 : FVec F S2x3072x2048 .f32) (main_arg1 : FVec F S2x2048x512 .f32) : IVec S_ 1 :=
  let main_v0 : FVec F S2x3072x2048 .f32 := Host.absf main_arg0
  let main_cst : FVec F S_ .f32 := constant S_ .f32 0x7F800000#32
  let main_v1 : FVec F S2x3072x2048 .f32 := broadcastInDim S2x3072x2048 ![] bcast_S_S2x3072x2048 main_cst
  let main_v2 : IVec S2x3072x2048 1 := cmpf .olt main_v0 main_v1
  let main_c : IVec S_ 1 := constantI S_ 1 1#1
  let main_v3 : IVec S_ 1 := (fun x v => Host.reduce IntOp.andi x v reducesTo_S2x3072x2048_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  main_v8
-- ==== Kernel.lean ====
abbrev S2x3072x2048 : Shape := ⟨3, ![2, 3072, 2048]⟩
abbrev S2x2048x512 : Shape := ⟨3, ![2, 2048, 512]⟩
abbrev S32x192x2048 : Shape := ⟨3, ![32, 192, 2048]⟩
abbrev S32x128x512 : Shape := ⟨3, ![32, 128, 512]⟩
abbrev S32x64x2048 : Shape := ⟨3, ![32, 64, 2048]⟩
abbrev S1x64x512 : Shape := ⟨3, ![1, 64, 512]⟩
abbrev S1x64x2048 : Shape := ⟨3, ![1, 64, 2048]⟩
abbrev S64x512 : Shape := ⟨2, ![64, 512]⟩
abbrev S64x2048 : Shape := ⟨2, ![64, 2048]⟩
abbrev S64x2560 : Shape := ⟨2, ![64, 2560]⟩
abbrev S512x2560 : Shape := ⟨2, ![512, 2560]⟩
abbrev S512 : Shape := ⟨1, ![512]⟩
abbrev S512x1 : Shape := ⟨2, ![512, 1]⟩
abbrev S2x1024x2048 : Shape := ⟨3, ![2, 1024, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x3072x2048, .f32⟩
  | .hbm, ⟨1, _⟩ => ⟨S2x2048x512, .f32⟩
  | .hbm, ⟨2, _⟩ => ⟨S32x192x2048, .f32⟩
  | .hbm, ⟨3, _⟩ => ⟨S32x128x512, .f32⟩
  | .hbm, ⟨4, _⟩ => ⟨S32x64x2048, .f32⟩
  | .hbm, ⟨5, _⟩ => ⟨S2x1024x2048, .f32⟩
  | .local _ .vmem, ⟨0, _⟩ => ⟨S1x64x512, .f32⟩
  | .local _ .vmem, ⟨1, _⟩ => ⟨S1x64x512, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | _, _ => ⟨S2x3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x3072x2048_S32x192x2048 : S2x3072x2048.ShapeCasts S32x192x2048
  shapeCasts_S2x2048x512_S32x128x512 : S2x2048x512.ShapeCasts S32x128x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  concatenates_S64x512_S64x2048_S64x2560_d1 : Shape.Concatenates [S64x512, S64x2048] S64x2560 1
  bitsLt_bf16_f32 : FTy.bits .bf16 < FTy.bits .f32
  reduces_S512x2560_S512 : S512x2560.Reduces [1] S512
  shapeCasts_S512_S512x1 : S512.ShapeCasts S512x1
  broadcasts_S512x1_S512x2560 : S512x1.Broadcasts S512x2560
  shapeCasts_S64x512_S1x64x512 : S64x512.ShapeCasts S1x64x512
  shapeCasts_S32x64x2048_S2x1024x2048 : S32x64x2048.ShapeCasts S2x1024x2048
  dot_S64x512_S64x2560_S512x2560_0_0_1_1_n_n_wf : DotDims.WF S64x512 S64x2560 S512x2560 [0] [0] [1] [1] [] []
  dot_S64x2560_S512x2560_S64x512_1_1_0_0_n_n_wf : DotDims.WF S64x2560 S512x2560 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S32x192x2048.size a
  hwx0_0 : ∀ i : grid0.Coords, EltTy.bits .f32 = 32 ∨ (Rect.block (s := S32x192x2048) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x192x2048.size a
  hwx0_1 : ∀ i : grid0.Coords, EltTy.bits .f32 = 32 ∨ (Rect.block (s := S32x192x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S32x192x2048.size a
  hwx0_2 : ∀ i : grid0.Coords, EltTy.bits .f32 = 32 ∨ (Rect.block (s := S32x192x2048) S1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S32x128x512.size a
  hwx0_3 : ∀ i : grid0.Coords, EltTy.bits .f32 = 32 ∨ (Rect.block (s := S32x128x512) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S32x128x512.size a
  hwx0_4 : ∀ i : grid0.Coords, EltTy.bits .f32 = 32 ∨ (Rect.block (s := S32x128x512) S1x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S32x64x2048.size a
  hwx0_5 : ∀ i : grid0.Coords, EltTy.bits .f32 = 32 ∨ (Rect.block (s := S32x64x2048) S1x64x512.size (cc0_transform_5 i) (hinb0_5 i)).WholeWords (EltTy.packing .f32)

variable [Facts₀]

def dot_S64x512_S64x2560_S512x2560_0_0_1_1_n_n : DotDims S64x512 S64x2560 S512x2560 where
  lhsContracting := [0]
  rhsContracting := [0]
  lhsNonContracting := [1]
  rhsNonContracting := [1]
  lhsBatch := []
  rhsBatch := []
  wf := dot_S64x512_S64x2560_S512x2560_0_0_1_1_n_n_wf
def dot_S64x2560_S512x2560_S64x512_1_1_0_0_n_n : DotDims S64x2560 S512x2560 S64x512 where
  lhsContracting := [1]
  rhsContracting := [1]
  lhsNonContracting := [0]
  rhsNonContracting := [0]
  lhsBatch := []
  rhsBatch := []
  wf := dot_S64x2560_S512x2560_S64x512_1_1_0_0_n_n_wf

abbrev win0_0 : Pipeline.Window sig grid0 :=
  Pipeline.Window.ofSpec (Memref.whole main_v0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x3072x2048 : Shape := ⟨3, ![2, 3072, 2048]⟩
abbrev S2x2048x512 : Shape := ⟨3, ![2, 2048, 512]⟩
abbrev S32x192x2048 : Shape := ⟨3, ![32, 192, 2048]⟩
abbrev S32x64x2048 : Shape := ⟨3, ![32, 64, 2048]⟩
abbrev S32x128x512 : Shape := ⟨3, ![32, 128, 512]⟩
abbrev S32x64x512 : Shape := ⟨3, ![32, 64, 512]⟩
abbrev S32x64x2560 : Shape := ⟨3, ![32, 64, 2560]⟩
abbrev S_ : Shape := ⟨0, ![]⟩
abbrev S32x2048x2560 : Shape := ⟨3, ![32, 2048, 2560]⟩
abbrev S32x2048 : Shape := ⟨2, ![32, 2048]⟩
abbrev S32x2048x1 : Shape := ⟨3, ![32, 2048, 1]⟩
abbrev S2x1024x2048 : Shape := ⟨3, ![2, 1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x3072x2048, .f32⟩
  | .hbm, ⟨1, _⟩ => ⟨S2x2048x512, .f32⟩
  | .hbm, ⟨2, _⟩ => ⟨S32x192x2048, .f32⟩
  | .hbm, ⟨3, _⟩ => ⟨S32x64x2048, .f32⟩
  | .hbm, ⟨4, _⟩ => ⟨S32x64x2048, .f32⟩
  | .hbm, ⟨5, _⟩ => ⟨S32x64x2048, .f32⟩
  | .hbm, ⟨6, _⟩ => ⟨S32x128x512, .f32⟩
  | .hbm, ⟨7, _⟩ => ⟨S32x64x512, .f32⟩
  | .hbm, ⟨8, _⟩ => ⟨S32x64x512, .f32⟩
  | .hbm, ⟨9, _⟩ => ⟨S32x64x2560, .f32⟩
  | .hbm, ⟨10, _⟩ => ⟨S32x64x2560, .f32⟩
  | .hbm, ⟨11, _⟩ => ⟨S_, .f32⟩
  | .hbm, ⟨12, _⟩ => ⟨S32x64x2048, .f32⟩
  | .hbm, ⟨13, _⟩ => ⟨S32x64x2048, .f32⟩
  | .hbm, ⟨14, _⟩ => ⟨S_, .f32⟩
  | .hbm, ⟨15, _⟩ => ⟨S32x64x2560, .f32⟩
  | .hbm, ⟨16, _⟩ => ⟨S32x64x2560, .f32⟩
  | .hbm, ⟨17, _⟩ => ⟨S32x2048x2560, .f32⟩
  | .hbm, ⟨18, _⟩ => ⟨S_, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S32x2048x1, .f32⟩
  | .hbm, ⟨24, _⟩ => ⟨S32x2048x2560, .f32⟩
  | .hbm, ⟨25, _⟩ => ⟨S32x2048x2560, .f32⟩
  | .hbm, ⟨26, _⟩ => ⟨S32x2048x2560, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S32x2048x2560, .f32⟩
  | .hbm, ⟨31, _⟩ => ⟨S32x2048x2560, .f32⟩
  | .hbm, ⟨32, _⟩ => ⟨S32x64x2048, .f32⟩
  | .hbm, ⟨33, _⟩ => ⟨S2x1024x2048, .f32⟩
  | _, _ => ⟨S2x3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S2x3072x2048_S32x192x2048 : S2x3072x2048.ShapeCasts S32x192x2048
  slices_S32x192x2048_S32x64x2048_0_0_0 : S32x192x2048.Slices ![0, 0, 0] S32x64x2048
  slices_S32x192x2048_S32x64x2048_0_64_0 : S32x192x2048.Slices ![0, 64, 0] S32x64x2048
  slices_S32x192x2048_S32x64x2048_0_128_0 : S32x192x2048.Slices ![0, 128, 0] S32x64x2048
  shapeCasts_S2x2048x512_S32x128x512 : S2x2048x512.ShapeCasts S32x128x512
  slices_S32x128x512_S32x64x512_0_0_0 : S32x128x512.Slices ![0, 0, 0] S32x64x512
  slices_S32x128x512_S32x64x512_0_64_0 : S32x128x512.Slices ![0, 64, 0] S32x64x512
  concatenates_S32x64x512_S32x64x2048_S32x64x2560_d2 : Shape.Concatenates [S32x64x512, S32x64x2048] S32x64x2560 2
  bcast_S_S32x64x2048 : S_.BroadcastsInDim S32x64x2048 (![] : Fin 0 → Fin S32x64x2048.rank)
  bcast_S_S32x64x2560 : S_.BroadcastsInDim S32x64x2560 (![] : Fin 0 → Fin S32x64x2560.rank)
  reducesTo_S32x2048x2560_S32x2048_d2 : S32x2048x2560.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2560_0_1_2 : S32x2048x1.BroadcastsInDim S32x2048x2560 (![0, 1, 2] : Fin 3 → Fin S32x2048x2560.rank)
  shapeCasts_S32x64x2048_S2x1024x2048 : S32x64x2048.ShapeCasts S2x1024x2048
  dot_S32x64x2048_S32x64x2560_S32x2048x2560_1_1_2_2_0_0_wf : DotDims.WF S32x64x2048 S32x64x2560 S32x2048x2560 [1] [1] [2] [2] [0] [0]
  dot_S32x64x2560_S32x2048x2560_S32x64x2048_2_2_1_1_0_0_wf : DotDims.WF S32x64x2560 S32x2048x2560 S32x64x2048 [2] [2] [1] [1] [0] [0]

variable [Facts₀]

def dot_S32x64x2048_S32x64x2560_S32x2048x2560_1_1_2_2_0_0 : DotDims S32x64x2048 S32x64x2560 S32x2048x2560 where
  lhsContracting := [1]
  rhsContracting := [1]
  lhsNonContracting := [2]
  rhsNonContracting := [2]
  lhsBatch := [0]
  rhsBatch := [0]
  wf := dot_S32x64x2048_S32x64x2560_S32x2048x2560_1_1_2_2_0_0_wf
def dot_S32x64x2560_S32x2048x2560_S32x64x2048_2_2_1_1_0_0 : DotDims S32x64x2560 S32x2048x2560 S32x64x2048 where
  lhsContracting := [2]
  rhsContracting := [2]
  lhsNonContracting := [1]
  rhsNonContracting := [1]
  lhsBatch := [0]
  rhsBatch := [0]
  wf := dot_S32x64x2560_S32x2048x2560_S32x64x2048_2_2_1_1_0_0_wf

class Facts : Prop extends Facts₀ where

variable [Facts]
-- ==== Proof.KBody.lean ====
/-
  The kernel region of `Kernel`, point by point. The pipeline has six windows on a 32 × 4 grid: the query block
  (head b, channels 0–63, tokens 512·i … 512·i+511), the self key and value blocks (head b, channels 64–127 and
  128–191, all 2048 tokens) — three windows on ONE packed array —, the encoder key and value blocks (head b, channels
  0–63 and 64–127 of the second packed array, all 512 tokens) — two windows on ONE array —, and the output block
  (head b, all 64 channels, tokens 512·i …). The body loads the five input blocks whole, computes one pure term of
  them, and stores it over the whole output block. So after the body every input buffer holds the block it held and
  the output buffer holds that term of the five input blocks; the arrays several windows read are held by those
  windows at disjoint shares of the full share, which is all a reader needs.
-/
import proofs.«165959_j7404523618828_2_alg».proof.Proof.Gen.Kernel.Launch
import proofs.«165959_j7404523618828_2_alg».proof.Proof.Gen.Kernel.Skeleton
import proofs.«165959_j7404523618828_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation of the host operations; -/
abbrev V₀ (c : Dev nD) : Valuation τ sig (Elt F) := fun b => m ((c : Dev nD), b)
/-- and when the region is entered: the two reshapes of the arguments have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: a point that does not fetch
    the window has the same block index as the one before it, and the body leaves the block in place. One statement
    per input window (the block's type depends on the window). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rq : Rect S1x64x512 := Rect.unit (s := S1x64x512) ![0, 0, 0] S1x64x512.size inb_S1x64x512_S1x64x512_0_0_0
abbrev rk : Rect S1x64x2048 := Rect.unit (s := S1x64x2048) ![0, 0, 0] S1x64x2048.size inb_S1x64x2048_S1x64x2048_0_0_0

/-- The output buffer after the body, from the five input blocks: its one store, of the body's one payload. -/
def outBlk (x0 : Vec F S1x64x512 .f32) (x1 x2 : Vec F S1x64x2048 .f32) (x3 x4 : Vec F S1x64x512 .f32) : Vec F S1x64x512 .f32 :=
  View.canon [⟨rq, k0_pay1 (View.ld x0 rq) (View.ld x1 rk) (View.ld x2 rk) (View.ld x3 rq) (View.ld x4 rq)⟩]

/-- The one store covers the buffer. -/
theorem cover_out (p0 : Vec F S1x64x512 .f32) (y : S1x64x512.Idx) :
    ∃ pc ∈ ([⟨rq, p0⟩] : List (View.Piece (Elt F) S1x64x512 .f32)), y ∈ pc.1.set :=
  View.cover_of_tiled [⟨rq, p0⟩] S1x64x512.size (by rfl) y

/-! ## The body's triple -/

set_option maxHeartbeats 1000000 in
/-- The body on whole staging memrefs, the inputs' at contents `xW` and the output's at anything, runs to the
    continuation holding the inputs' as they were and the output's at `outBlk` of the inputs'. -/
theorem sound_kernel (c : Dev nD) (E : Set ℕ) (i : grid0.Coords)
    (arg2 : Memref sig .tc .vmem S1x64x512 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x512 .f32) (harg5 : arg5.IsWhole)
    (arg6 : Memref sig .tc .vmem S1x64x512 .f32) (harg6 : arg6.IsWhole) (arg7 : Memref sig .tc .vmem S1x64x512 .f32) (harg7 : arg7.IsWhole)
    (x0 : Vec F S1x64x512 .f32) (x1 x2 : Vec F S1x64x2048 .f32) (x3 x4 : Vec F S1x64x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBlk` of the input blocks; the invariant the scoped buffers that stage
    nothing, untouched; nothing owed; the packed array of queries, keys and values held by its three windows at three
    disjoint shares, the packed encoder array by its two windows at the two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KRun.lean ====
/-
  The whole run of `Kernel`'s @main: two reshapes of the arguments into the packed arrays, the kernel region, one
  reshape of the region's result. @main is taken as three segments — the host operations before the region, the region,
  the host operation after it — each entered from what the one before left. Between segments the core holds its
  unscoped buffers whole at a valuation. At the region's entry the buffers behind the windows' arrays are dealt to the
  windows: the packed array that three input windows read is split in three disjoint shares, the one two input windows
  read in two, the result's array goes whole to the output window; at the exit the shares are put together again (the
  readers' arrays unchanged, the result's array at the blocks the points wrote back). The run ends with the result
  buffer at the last reshape of the region's result, and every argument as launched.
-/
import proofs.«165959_j7404523618828_2_alg».proof.Proof.KBody
import Idealize.ShloMosaic.Lib.Pipeline.Regions
import Idealize.ShloMosaic.Lib.Pipeline.Frame

set_option maxRecDepth 16384

noncomputable section

namespace Cert.Kernel.Run

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through every segment: the core owes nothing. -/
abbrev R (c : Dev nD) : sProp 𝕄 := iprop(∃ W, owes (c : Thread nD τ) (0 : CellTallies nD τ sig Unit) W)

/-! ## The valuations between the segments -/

/-- What the region leaves in the result's array: the launch-time contents overwritten, point after point, by the
    block each point wrote back. -/
abbrev outArr (c : Dev nD) : Buf (Elt F) ((c : Thread nD τ).loc main_v2) := (dats m 0 c).arrAt 5 cfg0.N

/-- Core `c`'s buffers after the region: the result's array as the region left it, every other buffer as it was
    entered. -/
def V₁ (c : Dev nD) : Valuation τ sig (Elt F) :=
  Function.update (StableHlo.after hostOps0 (V₀ m c)) (Proc.devRef .tc main_v2) (outArr m c)

/-- And at the end: the last reshape has run. -/
abbrev V₂ (c : Dev nD) : Valuation τ sig (Elt F) := StableHlo.after hostOps1 (V₁ m c)

theorem V₁_out (c : Dev nD) : V₁ m c (Proc.devRef .tc main_v2) = outArr m c := by
  unfold V₁; exact Function.update_self ..

theorem V₁_of_ne (c : Dev nD) (b : Ref sig .tc) (hb : b ≠ main_v2) :
    V₁ m c (Proc.devRef .tc b) = V m c b := by
  unfold V₁; exact Function.update_of_ne (StableHlo.devRef_ne_of_ne hb) ..

/-! ## The buffers behind the windows' arrays, and their shares -/

omit [FloatOps F] in
/-- Three buffers stand behind the six windows' arrays. -/
theorem arrBufs_eq (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_v0) ↦{fullShare} Vf main_v0) ∗ (((c : Thread nD τ).loc main_v1) ↦{fullShare} Vf main_v1)
          ∗ (((c : Thread nD τ).loc main_v2) ↦{fullShare} Vf main_v2)) := by
  unfold Pipeline.arrBufs
  exact bigSep_eq_bigSepL_of_eq [main_v0, main_v1, main_v2] (by decide) (by decide) _

/-- The windows' arrays at contents `G` that agree on each shared buffer are the three buffers whole: the first packed
    array's three reader shares make up the full share, the second's two halves likewise, the result's array is held whole. -/
theorem arrays_iff (c : Dev nD) (G : (w : Fin cfg0.W) → Buf (Elt F) ((cfg0.win w).arr.view.loc (c : Thread nD τ)))
    (a : Buf (Elt F) ((c : Thread nD τ).loc main_v0)) (b : Buf (Elt F) ((c : Thread nD τ).loc main_v1)) (o : Buf (Elt F) ((c : Thread nD τ).loc main_v2))
    (h0 : G 0 = a) (h1 : G 1 = a) (h2 : G 2 = a) (h3 : G 3 = b) (h4 : G 4 = b) (h5 : G 5 = o) :
    ((dats m 0 c).arrays G : sProp 𝕄)
      ⊣⊢ iprop((((c : Thread nD τ).loc main_v0) ↦{fullShare} a) ∗ (((c : Thread nD τ).loc main_v1) ↦{fullShare} b)
          ∗ (((c : Thread nD τ).loc main_v2) ↦{fullShare} o)) := by
  unfold Dat.arrays
  rw [bigSep_W0]
  rw [(arr_whole0 0).set_eq_univ, (arr_whole0 3).set_eq_univ, (arr_whole0 5).set_eq_univ, h0, h1, h2, h3, h4, h5]
  have e0 : (dats m 0 c).share 0 = fullShare.left := rfl
  have e1 : (dats m 0 c).share 1 = fullShare.right.left := rfl
  have e2 : (dats m 0 c).share 2 = fullShare.right.right := rfl
  have e3 : (dats m 0 c).share 3 = fullShare.left := rfl
  have e4 : (dats m 0 c).share 4 = fullShare.right := rfl
  have e5 : (dats m 0 c).share 5 = fullShare := rfl
  rw [e0, e1, e2, e3, e4, e5]
  show iprop((((c : Thread nD τ).loc main_v0) ↦{fullShare.left} a) ∗ (((c : Thread nD τ).loc main_v0) ↦{fullShare.right.left} a)
      ∗ (((c : Thread nD τ).loc main_v0) ↦{fullShare.right.right} a) ∗ (((c : Thread nD τ).loc main_v1) ↦{fullShare.left} b)
      ∗ (((c : Thread nD τ).loc main_v1) ↦{fullShare.right} b) ∗ (((c : Thread nD τ).loc main_v2) ↦{fullShare} o) : sProp 𝕄) ⊣⊢ _
  have sA : ((((c : Thread nD τ).loc main_v0) ↦{fullShare} a) : sProp 𝕄)
      ⊣⊢ iprop((((c : Thread nD τ).loc main_v0) ↦{fullShare.left} a) ∗ (((c : Thread nD τ).loc main_v0) ↦{fullShare.right} a)) :=
    pointsTo_share (PosShare.mem_left_op_right fullShare)
  have sA' : ((((c : Thread nD τ).loc main_v0) ↦{fullShare.right} a) : sProp 𝕄)
      ⊣⊢ iprop((((c : Thread nD τ).loc main_v0) ↦{fullShare.right.left} a) ∗ (((c : Thread nD τ).loc main_v0) ↦{fullShare.right.right} a)) :=
    pointsTo_share (PosShare.mem_left_op_right fullShare.right)
  have sB : ((((c : Thread nD τ).loc main_v1) ↦{fullShare} b) : sProp 𝕄)
      ⊣⊢ iprop((((c : Thread nD τ).loc main_v1) ↦{fullShare.left} b) ∗ (((c : Thread nD τ).loc main_v1) ↦{fullShare.right} b)) :=
    pointsTo_share (PosShare.mem_left_op_right fullShare)
  constructor
  · iintro ⟨H0, H1, H2, H3, H4, H5⟩
    isplitl [H0 H1 H2]
    · iapply sA.2
      isplitl [H0]; · iexact H0
      iapply sA'.2
      isplitl [H1] <;> iassumption
    isplitl [H3 H4]
    · iapply sB.2
      isplitl [H3] <;> iassumption
    iexact H5
  · iintro ⟨HA, HB, HO⟩
    ihave HA := sA.1 $$ HA
    icases HA with ⟨H0, HA⟩
    ihave HA := sA'.1 $$ HA
    icases HA with ⟨H1, H2⟩
    ihave HB := sB.1 $$ HB
    icases HB with ⟨H3, H4⟩
    isplitl [H0]; · iexact H0
    isplitl [H1]; · iexact H1
    isplitl [H2]; · iexact H2
    isplitl [H3]; · iexact H3
    isplitl [H4]; · iexact H4
    iexact HO

/-- A core's unscoped buffers at contents `Vf`, one by one: the three buffers behind the arrays, then the two
    arguments and the program's result. -/
theorem unscopedBufs_eq (c : Dev nD) (Vf : (b : Ref sig .tc) → Buf (Elt F) ((c : Thread nD τ).loc b)) :
    (unscopedBufs (Ix := Unit) (Name := ℕ) (U := UR sig nD τ) (Lvl := ℕ) c Vf : sProp 𝕄)
      = iprop(((((c : Thread nD τ).loc main_v0) ↦{fullShare} Vf main_v0) ∗ (((c : Thread nD τ).loc main_v1) ↦{fullShare} Vf main_v1)
          ∗ (((c : Thread nD τ).loc main_v2) ↦{fullShare} Vf main_v2))
        ∗ ((((c : Thread nD τ).loc main_arg0) ↦{fullShare} Vf main_arg0) ∗ (((c : Thread nD τ).loc main_arg1) ↦{fullShare} Vf main_arg1)
          ∗ (((c : Thread nD τ).loc main_v3) ↦{fullShare} Vf main_v3))) := by
  refine (Pipeline.unscopedBufs_split₀ cfgs 0 winFacts₀0.arr_unscoped c Vf).trans ?_
  show iprop((Pipeline.arrBufs (Ix := Unit) (Name := ℕ) (U := UR sig nD τ) (Lvl := ℕ) spec0 c Vf : sProp 𝕄)
    ∗ Pipeline.unscopedRest (Ix := Unit) (Name := ℕ) (U := UR sig nD τ) (Lvl := ℕ) spec0 c Vf) = _
  rw [arrBufs_eq, unscopedRest0_eq]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The host operation after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- The region: entered from what the first segment left, it hands the arrays to the windows at their shares, the
    staging-free scoped buffers to the invariant, and lets the arguments and the program's result buffer bypass it;
    it leaves the buffers whole again, the result's array at what the points wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := iprop((((c : Thread nD τ).loc main_arg0) ↦{fullShare} V m c main_arg0) ∗ (((c : Thread nD τ).loc main_arg1) ↦{fullShare} V m c main_arg1)
          ∗ (((c : Thread nD τ).loc main_v3) ↦{fullShare} V m c main_v3))
  hentry c := by
    rw [show StableHlo.held (c : Thread nD τ) (Pipeline.ucRefs τ sig) (StableHlo.after hostOps0 (V₀ m c)) = unscopedBufs c (V m c)
      from (Pipeline.unscopedBufs_held c _).symm, unscopedBufs_eq]
    have hs := (arrays_iff m c (fun w => (dats m 0 c).arrAt w 0) (V m c main_v0) (V m c main_v1) (V m c main_v2)
      rfl rfl rfl rfl rfl rfl).2
    iintro ⟨⟨⟨HA, HZ⟩, HO⟩, -, -⟩
    ihave Ha := hs $$ HA
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m c) = unscopedBufs c (fun b => V₁ m c b)
      from (Pipeline.unscopedBufs_held c _).symm, unscopedBufs_eq]
    have hs := (arrays_iff m c (fun w => (dats m 0 c).arrAt w cfg0.N) (V m c main_v0) (V m c main_v1) (outArr m c)
      (((dats m 0 c).arrAt_in 0 rfl _).trans (A_eq m c 0)) (((dats m 0 c).arrAt_in 1 rfl _).trans (A_eq m c 1))
      (((dats m 0 c).arrAt_in 2 rfl _).trans (A_eq m c 2)) (((dats m 0 c).arrAt_in 3 rfl _).trans (A_eq m c 3))
      (((dats m 0 c).arrAt_in 4 rfl _).trans (A_eq m c 4)) rfl).1
    rw [V₁_of_ne m c main_v0 (by decide), V₁_of_ne m c main_v1 (by decide), V₁_out, V₁_of_ne m c main_arg0 (by decide),
      V₁_of_ne m c main_arg1 (by decide), V₁_of_ne m c main_v3 (by decide)]
    iintro ⟨Ha, HO, -, HZ⟩
    ihave HA := hs $$ Ha
    imodintro
    isplitr [HO]
    · isplitl [HA]; · iexact HA
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What a final memory holds, core by core: the program's result buffer at the last valuation, the arguments as launched. -/
def QC : PUnit × MemSt nD τ sig (Elt F) → Prop := fun r =>
  ∀ c : Dev nD, r.2.mem ((c : Thread nD τ).loc main_v3) = V₂ m c (Proc.devRef .tc main_v3)
    ∧ r.2.mem ((c : Thread nD τ).loc main_arg0) = m ((c : Thread nD τ).loc main_arg0)
    ∧ r.2.mem ((c : Thread nD τ).loc main_arg1) = m ((c : Thread nD τ).loc main_arg1)

/-- No operation of the first stretch writes an argument. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, StableHlo.unary_writes, Finset.mem_singleton] <;>
    exact StableHlo.devRef_ne_of_ne ‹_›

/-- Nor does the last stretch. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  rcases hop with rfl <;>
    simp only [StableHlo.reshape_writes, StableHlo.unary_writes, Finset.mem_singleton] <;>
    exact StableHlo.devRef_ne_of_ne ‹_›

/-- An argument reaches the end as launched: no host operation writes it and the region leaves it. -/
theorem V₂_arg (c : Dev nD) (b : Ref sig .tc) (hb : b ≠ main_v0 ∧ b ≠ main_v1 ∧ b ≠ main_v2 ∧ b ≠ main_v3) :
    V₂ m c (Proc.devRef .tc b) = m ((c : Thread nD τ).loc b) := by
  obtain ⟨h0, h1, h2, h3⟩ := hb
  show StableHlo.after hostOps1 (V₁ m c) (Proc.devRef .tc b) = _
  rw [StableHlo.after_of_forall_not_mem (b := Proc.devRef .tc b) hostOps1 (V₁ m c) (not_written1 b h3), V₁_of_ne m c b h2]
  exact StableHlo.after_of_forall_not_mem (b := Proc.devRef .tc b) hostOps0 (V₀ m c) (not_written0 b ⟨h0, h1⟩)

set_option backward.isDefEq.respectTransparency.types false in
/-- At the compiled mesh, from any memory with zero counters: every weakly fair execution of @main on the TensorCores
    terminates, nothing faulting, and every final state has the result buffer at the last valuation and the arguments
    as launched. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v3) = V₂ m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (V₂ m c) = unscopedBufs c (fun b => V₂ m c b)
        from (Pipeline.unscopedBufs_held c _).symm, unscopedBufs_eq,
        V₂_arg m c main_arg0 (by decide), V₂_arg m c main_arg1 (by decide)]
      iintro ⟨⟨-, H0, H1, H3⟩, HSI⟩
      icombine HSI H0 gives %h0
      icombine HSI H1 gives %h1
      icombine HSI H3 gives %h3
      imodintro
      isplitr
      · ipureintro
        exact ⟨Buf.eq_of_forall_mem_univ h3, Buf.eq_of_forall_mem_univ h0, Buf.eq_of_forall_mem_univ h1⟩
      iexact HSI)
    (hQ := fun _ h => h)

end Cert.Kernel.Run

end
-- ==== Proof.KIBody.lean ====
/-
  The kernel region of `KernelIdeal`, point by point. The pipeline has six windows on a 32 × 4 grid: the query block
  (head b, channels 0–63, tokens 512·i … 512·i+511), the self key and value blocks (head b, channels 64–127 and
  128–191, all 2048 tokens) — three windows on ONE packed array —, the encoder key and value blocks (head b, channels
  0–63 and 64–127 of the second packed array, all 512 tokens) — two windows on ONE array —, and the output block
  (head b, all 64 channels, tokens 512·i …). The body loads the five input blocks whole, computes one pure term of
  them, and stores it over the whole output block. So after the body every input buffer holds the block it held and
  the output buffer holds that term of the five input blocks; the arrays several windows read are held by those
  windows at disjoint shares of the full share, which is all a reader needs.
-/
import proofs.«165959_j7404523618828_2_alg».proof.Proof.Gen.KernelIdeal.Launch
import proofs.«165959_j7404523618828_2_alg».proof.Proof.Gen.KernelIdeal.Skeleton
import proofs.«165959_j7404523618828_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation of the host operations; -/
abbrev V₀ (c : Dev nD) : Valuation τ sig (Elt F) := fun b => m ((c : Dev nD), b)
/-- and when the region is entered: the two reshapes of the arguments have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: a point that does not fetch
    the window has the same block index as the one before it, and the body leaves the block in place. One statement
    per input window (the block's type depends on the window). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rq : Rect S1x64x512 := Rect.unit (s := S1x64x512) ![0, 0, 0] S1x64x512.size inb_S1x64x512_S1x64x512_0_0_0
abbrev rk : Rect S1x64x2048 := Rect.unit (s := S1x64x2048) ![0, 0, 0] S1x64x2048.size inb_S1x64x2048_S1x64x2048_0_0_0

/-- The output buffer after the body, from the five input blocks: its one store, of the body's one payload. -/
def outBlk (x0 : Vec F S1x64x512 .f32) (x1 x2 : Vec F S1x64x2048 .f32) (x3 x4 : Vec F S1x64x512 .f32) : Vec F S1x64x512 .f32 :=
  View.canon [⟨rq, k0_pay1 (View.ld x0 rq) (View.ld x1 rk) (View.ld x2 rk) (View.ld x3 rq) (View.ld x4 rq)⟩]

/-- The one store covers the buffer. -/
theorem cover_out (p0 : Vec F S1x64x512 .f32) (y : S1x64x512.Idx) :
    ∃ pc ∈ ([⟨rq, p0⟩] : List (View.Piece (Elt F) S1x64x512 .f32)), y ∈ pc.1.set :=
  View.cover_of_tiled [⟨rq, p0⟩] S1x64x512.size (by rfl) y

/-! ## The body's triple -/

set_option maxHeartbeats 1000000 in
/-- The body on whole staging memrefs, the inputs' at contents `xW` and the output's at anything, runs to the
    continuation holding the inputs' as they were and the output's at `outBlk` of the inputs'. -/
theorem sound_kernel (c : Dev nD) (E : Set ℕ) (i : grid0.Coords)
    (arg2 : Memref sig .tc .vmem S1x64x512 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x512 .f32) (harg5 : arg5.IsWhole)
    (arg6 : Memref sig .tc .vmem S1x64x512 .f32) (harg6 : arg6.IsWhole) (arg7 : Memref sig .tc .vmem S1x64x512 .f32) (harg7 : arg7.IsWhole)
    (x0 : Vec F S1x64x512 .f32) (x1 x2 : Vec F S1x64x2048 .f32) (x3 x4 : Vec F S1x64x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBlk` of the input blocks; the invariant the scoped buffers that stage
    nothing, untouched; nothing owed; the packed array of queries, keys and values held by its three windows at three
    disjoint shares, the packed encoder array by its two windows at the two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KIRun.lean ====
/-
  The whole run of `KernelIdeal`'s @main: two reshapes of the arguments into the packed arrays, the kernel region, one
  reshape of the region's result. @main is taken as three segments — the host operations before the region, the region,
  the host operation after it — each entered from what the one before left. Between segments the core holds its
  unscoped buffers whole at a valuation. At the region's entry the buffers behind the windows' arrays are dealt to the
  windows: the packed array that three input windows read is split in three disjoint shares, the one two input windows
  read in two, the result's array goes whole to the output window; at the exit the shares are put together again (the
  readers' arrays unchanged, the result's array at the blocks the points wrote back). The run ends with the result
  buffer at the last reshape of the region's result, and every argument as launched.
-/
import proofs.«165959_j7404523618828_2_alg».proof.Proof.KIBody
import Idealize.ShloMosaic.Lib.Pipeline.Regions
import Idealize.ShloMosaic.Lib.Pipeline.Frame

set_option maxRecDepth 16384

noncomputable section

namespace Cert.KernelIdeal.Run

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through every segment: the core owes nothing. -/
abbrev R (c : Dev nD) : sProp 𝕄 := iprop(∃ W, owes (c : Thread nD τ) (0 : CellTallies nD τ sig Unit) W)

/-! ## The valuations between the segments -/

/-- What the region leaves in the result's array: the launch-time contents overwritten, point after point, by the
    block each point wrote back. -/
abbrev outArr (c : Dev nD) : Buf (Elt F) ((c : Thread nD τ).loc main_v2) := (dats m 0 c).arrAt 5 cfg0.N

/-- Core `c`'s buffers after the region: the result's array as the region left it, every other buffer as it was
    entered. -/
def V₁ (c : Dev nD) : Valuation τ sig (Elt F) :=
  Function.update (StableHlo.after hostOps0 (V₀ m c)) (Proc.devRef .tc main_v2) (outArr m c)

/-- And at the end: the last reshape has run. -/
abbrev V₂ (c : Dev nD) : Valuation τ sig (Elt F) := StableHlo.after hostOps1 (V₁ m c)

theorem V₁_out (c : Dev nD) : V₁ m c (Proc.devRef .tc main_v2) = outArr m c := by
  unfold V₁; exact Function.update_self ..

theorem V₁_of_ne (c : Dev nD) (b : Ref sig .tc) (hb : b ≠ main_v2) :
    V₁ m c (Proc.devRef .tc b) = V m c b := by
  unfold V₁; exact Function.update_of_ne (StableHlo.devRef_ne_of_ne hb) ..

/-! ## The buffers behind the windows' arrays, and their shares -/

omit [FloatOps F] in
/-- Three buffers stand behind the six windows' arrays. -/
theorem arrBufs_eq (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_v0) ↦{fullShare} Vf main_v0) ∗ (((c : Thread nD τ).loc main_v1) ↦{fullShare} Vf main_v1)
          ∗ (((c : Thread nD τ).loc main_v2) ↦{fullShare} Vf main_v2)) := by
  unfold Pipeline.arrBufs
  exact bigSep_eq_bigSepL_of_eq [main_v0, main_v1, main_v2] (by decide) (by decide) _

/-- The windows' arrays at contents `G` that agree on each shared buffer are the three buffers whole: the first packed
    array's three reader shares make up the full share, the second's two halves likewise, the result's array is held whole. -/
theorem arrays_iff (c : Dev nD) (G : (w : Fin cfg0.W) → Buf (Elt F) ((cfg0.win w).arr.view.loc (c : Thread nD τ)))
    (a : Buf (Elt F) ((c : Thread nD τ).loc main_v0)) (b : Buf (Elt F) ((c : Thread nD τ).loc main_v1)) (o : Buf (Elt F) ((c : Thread nD τ).loc main_v2))
    (h0 : G 0 = a) (h1 : G 1 = a) (h2 : G 2 = a) (h3 : G 3 = b) (h4 : G 4 = b) (h5 : G 5 = o) :
    ((dats m 0 c).arrays G : sProp 𝕄)
      ⊣⊢ iprop((((c : Thread nD τ).loc main_v0) ↦{fullShare} a) ∗ (((c : Thread nD τ).loc main_v1) ↦{fullShare} b)
          ∗ (((c : Thread nD τ).loc main_v2) ↦{fullShare} o)) := by
  unfold Dat.arrays
  rw [bigSep_W0]
  rw [(arr_whole0 0).set_eq_univ, (arr_whole0 3).set_eq_univ, (arr_whole0 5).set_eq_univ, h0, h1, h2, h3, h4, h5]
  have e0 : (dats m 0 c).share 0 = fullShare.left := rfl
  have e1 : (dats m 0 c).share 1 = fullShare.right.left := rfl
  have e2 : (dats m 0 c).share 2 = fullShare.right.right := rfl
  have e3 : (dats m 0 c).share 3 = fullShare.left := rfl
  have e4 : (dats m 0 c).share 4 = fullShare.right := rfl
  have e5 : (dats m 0 c).share 5 = fullShare := rfl
  rw [e0, e1, e2, e3, e4, e5]
  show iprop((((c : Thread nD τ).loc main_v0) ↦{fullShare.left} a) ∗ (((c : Thread nD τ).loc main_v0) ↦{fullShare.right.left} a)
      ∗ (((c : Thread nD τ).loc main_v0) ↦{fullShare.right.right} a) ∗ (((c : Thread nD τ).loc main_v1) ↦{fullShare.left} b)
      ∗ (((c : Thread nD τ).loc main_v1) ↦{fullShare.right} b) ∗ (((c : Thread nD τ).loc main_v2) ↦{fullShare} o) : sProp 𝕄) ⊣⊢ _
  have sA : ((((c : Thread nD τ).loc main_v0) ↦{fullShare} a) : sProp 𝕄)
      ⊣⊢ iprop((((c : Thread nD τ).loc main_v0) ↦{fullShare.left} a) ∗ (((c : Thread nD τ).loc main_v0) ↦{fullShare.right} a)) :=
    pointsTo_share (PosShare.mem_left_op_right fullShare)
  have sA' : ((((c : Thread nD τ).loc main_v0) ↦{fullShare.right} a) : sProp 𝕄)
      ⊣⊢ iprop((((c : Thread nD τ).loc main_v0) ↦{fullShare.right.left} a) ∗ (((c : Thread nD τ).loc main_v0) ↦{fullShare.right.right} a)) :=
    pointsTo_share (PosShare.mem_left_op_right fullShare.right)
  have sB : ((((c : Thread nD τ).loc main_v1) ↦{fullShare} b) : sProp 𝕄)
      ⊣⊢ iprop((((c : Thread nD τ).loc main_v1) ↦{fullShare.left} b) ∗ (((c : Thread nD τ).loc main_v1) ↦{fullShare.right} b)) :=
    pointsTo_share (PosShare.mem_left_op_right fullShare)
  constructor
  · iintro ⟨H0, H1, H2, H3, H4, H5⟩
    isplitl [H0 H1 H2]
    · iapply sA.2
      isplitl [H0]; · iexact H0
      iapply sA'.2
      isplitl [H1] <;> iassumption
    isplitl [H3 H4]
    · iapply sB.2
      isplitl [H3] <;> iassumption
    iexact H5
  · iintro ⟨HA, HB, HO⟩
    ihave HA := sA.1 $$ HA
    icases HA with ⟨H0, HA⟩
    ihave HA := sA'.1 $$ HA
    icases HA with ⟨H1, H2⟩
    ihave HB := sB.1 $$ HB
    icases HB with ⟨H3, H4⟩
    isplitl [H0]; · iexact H0
    isplitl [H1]; · iexact H1
    isplitl [H2]; · iexact H2
    isplitl [H3]; · iexact H3
    isplitl [H4]; · iexact H4
    iexact HO

/-- A core's unscoped buffers at contents `Vf`, one by one: the three buffers behind the arrays, then the two
    arguments and the program's result. -/
theorem unscopedBufs_eq (c : Dev nD) (Vf : (b : Ref sig .tc) → Buf (Elt F) ((c : Thread nD τ).loc b)) :
    (unscopedBufs (Ix := Unit) (Name := ℕ) (U := UR sig nD τ) (Lvl := ℕ) c Vf : sProp 𝕄)
      = iprop(((((c : Thread nD τ).loc main_v0) ↦{fullShare} Vf main_v0) ∗ (((c : Thread nD τ).loc main_v1) ↦{fullShare} Vf main_v1)
          ∗ (((c : Thread nD τ).loc main_v2) ↦{fullShare} Vf main_v2))
        ∗ ((((c : Thread nD τ).loc main_arg0) ↦{fullShare} Vf main_arg0) ∗ (((c : Thread nD τ).loc main_arg1) ↦{fullShare} Vf main_arg1)
          ∗ (((c : Thread nD τ).loc main_v3) ↦{fullShare} Vf main_v3))) := by
  refine (Pipeline.unscopedBufs_split₀ cfgs 0 winFacts₀0.arr_unscoped c Vf).trans ?_
  show iprop((Pipeline.arrBufs (Ix := Unit) (Name := ℕ) (U := UR sig nD τ) (Lvl := ℕ) spec0 c Vf : sProp 𝕄)
    ∗ Pipeline.unscopedRest (Ix := Unit) (Name := ℕ) (U := UR sig nD τ) (Lvl := ℕ) spec0 c Vf) = _
  rw [arrBufs_eq, unscopedRest0_eq]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The host operation after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- The region: entered from what the first segment left, it hands the arrays to the windows at their shares, the
    staging-free scoped buffers to the invariant, and lets the arguments and the program's result buffer bypass it;
    it leaves the buffers whole again, the result's array at what the points wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := iprop((((c : Thread nD τ).loc main_arg0) ↦{fullShare} V m c main_arg0) ∗ (((c : Thread nD τ).loc main_arg1) ↦{fullShare} V m c main_arg1)
          ∗ (((c : Thread nD τ).loc main_v3) ↦{fullShare} V m c main_v3))
  hentry c := by
    rw [show StableHlo.held (c : Thread nD τ) (Pipeline.ucRefs τ sig) (StableHlo.after hostOps0 (V₀ m c)) = unscopedBufs c (V m c)
      from (Pipeline.unscopedBufs_held c _).symm, unscopedBufs_eq]
    have hs := (arrays_iff m c (fun w => (dats m 0 c).arrAt w 0) (V m c main_v0) (V m c main_v1) (V m c main_v2)
      rfl rfl rfl rfl rfl rfl).2
    iintro ⟨⟨⟨HA, HZ⟩, HO⟩, -, -⟩
    ihave Ha := hs $$ HA
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m c) = unscopedBufs c (fun b => V₁ m c b)
      from (Pipeline.unscopedBufs_held c _).symm, unscopedBufs_eq]
    have hs := (arrays_iff m c (fun w => (dats m 0 c).arrAt w cfg0.N) (V m c main_v0) (V m c main_v1) (outArr m c)
      (((dats m 0 c).arrAt_in 0 rfl _).trans (A_eq m c 0)) (((dats m 0 c).arrAt_in 1 rfl _).trans (A_eq m c 1))
      (((dats m 0 c).arrAt_in 2 rfl _).trans (A_eq m c 2)) (((dats m 0 c).arrAt_in 3 rfl _).trans (A_eq m c 3))
      (((dats m 0 c).arrAt_in 4 rfl _).trans (A_eq m c 4)) rfl).1
    rw [V₁_of_ne m c main_v0 (by decide), V₁_of_ne m c main_v1 (by decide), V₁_out, V₁_of_ne m c main_arg0 (by decide),
      V₁_of_ne m c main_arg1 (by decide), V₁_of_ne m c main_v3 (by decide)]
    iintro ⟨Ha, HO, -, HZ⟩
    ihave HA := hs $$ Ha
    imodintro
    isplitr [HO]
    · isplitl [HA]; · iexact HA
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What a final memory holds, core by core: the program's result buffer at the last valuation, the arguments as launched. -/
def QC : PUnit × MemSt nD τ sig (Elt F) → Prop := fun r =>
  ∀ c : Dev nD, r.2.mem ((c : Thread nD τ).loc main_v3) = V₂ m c (Proc.devRef .tc main_v3)
    ∧ r.2.mem ((c : Thread nD τ).loc main_arg0) = m ((c : Thread nD τ).loc main_arg0)
    ∧ r.2.mem ((c : Thread nD τ).loc main_arg1) = m ((c : Thread nD τ).loc main_arg1)

/-- No operation of the first stretch writes an argument. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, StableHlo.unary_writes, Finset.mem_singleton] <;>
    exact StableHlo.devRef_ne_of_ne ‹_›

/-- Nor does the last stretch. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  rcases hop with rfl <;>
    simp only [StableHlo.reshape_writes, StableHlo.unary_writes, Finset.mem_singleton] <;>
    exact StableHlo.devRef_ne_of_ne ‹_›

/-- An argument reaches the end as launched: no host operation writes it and the region leaves it. -/
theorem V₂_arg (c : Dev nD) (b : Ref sig .tc) (hb : b ≠ main_v0 ∧ b ≠ main_v1 ∧ b ≠ main_v2 ∧ b ≠ main_v3) :
    V₂ m c (Proc.devRef .tc b) = m ((c : Thread nD τ).loc b) := by
  obtain ⟨h0, h1, h2, h3⟩ := hb
  show StableHlo.after hostOps1 (V₁ m c) (Proc.devRef .tc b) = _
  rw [StableHlo.after_of_forall_not_mem (b := Proc.devRef .tc b) hostOps1 (V₁ m c) (not_written1 b h3), V₁_of_ne m c b h2]
  exact StableHlo.after_of_forall_not_mem (b := Proc.devRef .tc b) hostOps0 (V₀ m c) (not_written0 b ⟨h0, h1⟩)

set_option backward.isDefEq.respectTransparency.types false in
/-- At the compiled mesh, from any memory with zero counters: every weakly fair execution of @main on the TensorCores
    terminates, nothing faulting, and every final state has the result buffer at the last valuation and the arguments
    as launched. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v3) = V₂ m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (V₂ m c) = unscopedBufs c (fun b => V₂ m c b)
        from (Pipeline.unscopedBufs_held c _).symm, unscopedBufs_eq,
        V₂_arg m c main_arg0 (by decide), V₂_arg m c main_arg1 (by decide)]
      iintro ⟨⟨-, H0, H1, H3⟩, HSI⟩
      icombine HSI H0 gives %h0
      icombine HSI H1 gives %h1
      icombine HSI H3 gives %h3
      imodintro
      isplitr
      · ipureintro
        exact ⟨Buf.eq_of_forall_mem_univ h3, Buf.eq_of_forall_mem_univ h0, Buf.eq_of_forall_mem_univ h1⟩
      iexact HSI)
    (hQ := fun _ h => h)

end Cert.KernelIdeal.Run

end
-- ==== Proof.AttnSpec.lean ====
/-
  Attention of one query column against a key/value sequence of 2560 tokens and 64 channels, as ONE function on the
  extended reals. For a query column `q : Fin 64 → EReal` and channel-major keys and values `k v : Fin 64 → Fin 2560 → EReal`:

    logit s  = ∑ c, (q c · σ) · (k c s · σ)            (σ the common pre-scale of queries and keys)
    rowMax   = the maximum of the logits over s (from −∞)
    expo s   = exp (logit s − rowMax)
    rowSum   = ∑ s, expo s
    weight s = expo s / rowSum                          (the softmax of the logits)
    out c    = ∑ s, v c s · weight s

  The key/value sequence is an encoder part of 512 tokens followed by a self part of 2048 tokens (`cat`).
  Both programs compute exactly this, column by column; nothing below mentions either program.
-/
import Idealize.ShloMosaic.PureOps.Ideal
import Idealize.ShloMosaic.Lib.ValueIdx

noncomputable section

open scoped BigOperators

namespace Cert.Attn

open Idealize.ShloMosaic

/-- The pre-scale both the queries and the keys are multiplied by: the f32 word both programs print. -/
def scale : EReal := Ideal.ofBits .f32 0x3EB504F3#32

/-- The value a row maximum starts from: the f32 word of −∞. -/
def negInf : EReal := Ideal.ofBits .f32 0xFF800000#32

/-- A sequence of 512 encoder tokens followed by 2048 self tokens, channel-major. -/
def cat (e : Fin 64 → Fin 512 → EReal) (f : Fin 64 → Fin 2048 → EReal) (c : Fin 64) (s : Fin 2560) : EReal :=
  if h : s.val < 512 then e c ⟨s.val, h⟩ else f c ⟨s.val - 512, by have := s.isLt; omega⟩

/-- The logit of key token `s` for the query column `q`: the scaled query against the scaled key, summed over channels. -/
def logit (q : Fin 64 → EReal) (k : Fin 64 → Fin 2560 → EReal) (s : Fin 2560) : EReal :=
  ∑ c : Fin 64, (q c * scale) * (k c s * scale)

/-- The greatest logit of the column. -/
def rowMax (q : Fin 64 → EReal) (k : Fin 64 → Fin 2560 → EReal) : EReal :=
  (Finset.univ : Finset (Fin 2560)).fold max negInf (logit q k)

/-- The shifted exponential of a logit. -/
def expo (q : Fin 64 → EReal) (k : Fin 64 → Fin 2560 → EReal) (s : Fin 2560) : EReal :=
  Ideal.exp (logit q k s - rowMax q k)

/-- The softmax denominator of the column. -/
def rowSum (q : Fin 64 → EReal) (k : Fin 64 → Fin 2560 → EReal) : EReal :=
  ∑ s : Fin 2560, expo q k s

/-- The softmax weight of key token `s`. -/
def weight (q : Fin 64 → EReal) (k : Fin 64 → Fin 2560 → EReal) (s : Fin 2560) : EReal :=
  Ideal.div (expo q k s) (rowSum q k)

/-- The attention output of the column at channel `c`: the values averaged by the softmax weights. -/
def attnCol (q : Fin 64 → EReal) (k v : Fin 64 → Fin 2560 → EReal) (c : Fin 64) : EReal :=
  ∑ s : Fin 2560, v c s * weight q k s

/-- The whole result as a function of the two packed arrays: `A` holds per head the query, key and value rows
    (channels 0–63, 64–127, 128–191) over 2048 tokens, `B` per head the encoder key and value rows (channels 0–63,
    64–127) over 512 tokens. Entry (head, channel, token) is the attention output of that head's query column at the
    token, against the head's encoder-then-self keys and values. -/
def attn (A : (⟨3, ![32, 192, 2048]⟩ : Shape).Idx → EReal) (B : (⟨3, ![32, 128, 512]⟩ : Shape).Idx → EReal) :
    (⟨3, ![32, 64, 2048]⟩ : Shape).Idx → EReal := fun i =>
  attnCol (fun c => A (ValueIdx.ix3 (i 0) (⟨c.val, by have := c.isLt; omega⟩ : Fin 192) (i 2)))
    (cat (fun c s => B (ValueIdx.ix3 (i 0) (⟨c.val, by have := c.isLt; omega⟩ : Fin 128) s))
         (fun c s => A (ValueIdx.ix3 (i 0) (⟨64 + c.val, by have := c.isLt; omega⟩ : Fin 192) s)))
    (cat (fun c s => B (ValueIdx.ix3 (i 0) (⟨64 + c.val, by have := c.isLt; omega⟩ : Fin 128) s))
         (fun c s => A (ValueIdx.ix3 (i 0) (⟨128 + c.val, by have := c.isLt; omega⟩ : Fin 192) s)))
    (i 1)

end Cert.Attn

end
-- ==== Proof.PayAttn.lean ====
/-
  The kernel body's arithmetic, read at one element: the block the body stores is, at channel c and query token t,
  the attention output of query column t against the concatenated (encoder, then self) keys and values.
  One lemma per stage of the body: the unit axis dropped, the concatenation along the token axis, the common
  pre-scale, the logits (a contraction over the 64 channels), the row maximum from -inf, the shifted exponential,
  the row sum, the softmax weight, and the output (a contraction over the 2560 key tokens).
-/
import proofs.«165959_j7404523618828_2_alg».proof.Proof.Gen.KernelIdeal.Skeleton
import proofs.«165959_j7404523618828_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Pay

open Idealize.ShloMosaic Idealize.ShloMosaic.ValueIdx Cert.KernelIdeal Cert.KernelIdeal.Gen

/-! ## The layout operations at an element -/

/-- The concatenation of a 512-token block and a 2048-token block along the token axis is `cat` of the two. -/
theorem concat_apply (e : FVec Ideal S64x512 .f32) (f : FVec Ideal S64x2048 .f32) (c : Fin 64) (s : Fin 2560) :
    concatenate S64x2560 1 [⟨S64x512, e⟩, ⟨S64x2048, f⟩] concatenates_S64x512_S64x2048_S64x2560_d1 (ix2 c s)
      = cat (fun c' s' => e (ix2 c' s')) (fun c' s' => f (ix2 c' s')) c s := by
  unfold cat
  split
  · next h =>
    exact concatenate_pair_apply_left 1 e f _ (ix2 c s) rfl (ix2 c ⟨s.val, h⟩)
      (fun b => by match b with | ⟨0, _⟩ => rfl | ⟨1, _⟩ => rfl)
  · next h =>
    exact concatenate_pair_apply_right 1 e f _ (ix2 c s) rfl rfl (ix2 c ⟨s.val - 512, by have := s.isLt; omega⟩)
      (fun b hb => by match b with | ⟨0, _⟩ => rfl | ⟨1, _⟩ => exact absurd rfl hb)
      (by show (s.val - 512) + 512 = s.val; omega)

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A per-row value of the 512 query tokens, kept as a column and spread over the 2560 key tokens, reads the row's value. -/
theorem keepdims_apply (v : FVec Ideal S512 .f32) (t : Fin 512) (s : Fin 2560) :
    broadcastTo S512x2560 (shapeCast S512x1 v shapeCasts_S512_S512x1) broadcasts_S512x1_S512x2560 (ix2 t s) = v (ix1 t) :=
  (broadcastTo_a1_ab_apply _ broadcasts_S512x1_S512x2560 t s).trans
    (shapeCast_a_a1_apply v shapeCasts_S512_S512x1 t (0 : Fin 1))

/-! ## The two reductions along the key-token axis -/

/-- The reduced index `t` with key token `k` put back on axis 1 is `(t, k)`. -/
theorem lift_row (t : Fin 512) (k : Fin (S512x2560.size 1)) :
    reduces_S512x2560_S512.lift (ix1 t) k = ix2 t (⟨k.val, k.isLt⟩ : Fin 2560) := by
  funext c; apply Fin.ext
  match c with
  | ⟨0, _⟩ => rfl
  | ⟨1, _⟩ => rfl

/-- The row maximum from −∞: the fold of `max` over the row's 2560 entries. -/
theorem rowmax_apply (src : FVec Ideal S512x2560 .f32) (t : Fin 512) :
    multiReduction (F := Ideal) .maximumf [1] S512 src 0xFF800000#32 reduces_S512x2560_S512 (.inl rfl) rfl (ix1 t)
      = (Finset.univ : Finset (Fin 2560)).fold max negInf (fun s => src (ix2 t s)) := by
  refine (Ideal.multiReduction_maximumf_single src 0xFF800000#32 reduces_S512x2560_S512 (.inl rfl) rfl (ix1 t)).trans ?_
  have hf : (src ∘ reduces_S512x2560_S512.lift (ix1 t)) = fun s : Fin 2560 => src (ix2 t s) :=
    funext fun k => congrArg src (lift_row t k)
  exact congrArg (fun f => Finset.fold max negInf f (Finset.univ : Finset (Fin 2560))) hf

/-- The row sum from 0: the sum of the row's 2560 entries. -/
theorem rowsum_apply (src : FVec Ideal S512x2560 .f32) (t : Fin 512) :
    multiReduction (F := Ideal) .add [1] S512 src 0x00000000#32 reduces_S512x2560_S512 (.inl rfl) rfl (ix1 t)
      = ∑ s : Fin 2560, src (ix2 t s) := by
  refine (Ideal.multiReduction_add_single src 0x00000000#32 reduces_S512x2560_S512 (.inl rfl) rfl (ix1 t)).trans ?_
  exact Finset.sum_congr rfl fun k _ => congrArg src (lift_row t k)

/-! ## The two contractions -/

/-- On the non-contracted axis the left operand of the first contraction reads the output's query token. -/
theorem qk_lhs_1 (i : S512x2560.Idx) (q : dot_S64x512_S64x2560_S512x2560_0_0_1_1_n_n.contr.Idx) : (dot_S64x512_S64x2560_S512x2560_0_0_1_1_n_n.lhsIdx i q 1).val = (i 0).val := by
  unfold DotDims.lhsIdx
  rw [dif_neg (show ¬(1 : Fin S64x512.rank) ∈ dot_S64x512_S64x2560_S512x2560_0_0_1_1_n_n.lhsBatch by decide),
    dif_pos (show (1 : Fin S64x512.rank) ∈ dot_S64x512_S64x2560_S512x2560_0_0_1_1_n_n.lhsNonContracting by decide)]
  rfl
/-- On the non-contracted axis the right operand of the first contraction reads the output's key token. -/
theorem qk_rhs_1 (i : S512x2560.Idx) (q : dot_S64x512_S64x2560_S512x2560_0_0_1_1_n_n.contr.Idx) : (dot_S64x512_S64x2560_S512x2560_0_0_1_1_n_n.rhsIdx i q 1).val = (i 1).val := by
  unfold DotDims.rhsIdx
  rw [dif_neg (show ¬(1 : Fin S64x2560.rank) ∈ dot_S64x512_S64x2560_S512x2560_0_0_1_1_n_n.rhsBatch by decide),
    dif_pos (show (1 : Fin S64x2560.rank) ∈ dot_S64x512_S64x2560_S512x2560_0_0_1_1_n_n.rhsNonContracting by decide)]
  rfl
/-- On the non-contracted axis the left operand of the second contraction reads the output's channel. -/
theorem vw_lhs_0 (i : S64x512.Idx) (q : dot_S64x2560_S512x2560_S64x512_1_1_0_0_n_n.contr.Idx) : (dot_S64x2560_S512x2560_S64x512_1_1_0_0_n_n.lhsIdx i q 0).val = (i 0).val := by
  unfold DotDims.lhsIdx
  rw [dif_neg (show ¬(0 : Fin S64x2560.rank) ∈ dot_S64x2560_S512x2560_S64x512_1_1_0_0_n_n.lhsBatch by decide),
    dif_pos (show (0 : Fin S64x2560.rank) ∈ dot_S64x2560_S512x2560_S64x512_1_1_0_0_n_n.lhsNonContracting by decide)]
  rfl
/-- On the non-contracted axis the right operand of the second contraction reads the output's query token. -/
theorem vw_rhs_0 (i : S64x512.Idx) (q : dot_S64x2560_S512x2560_S64x512_1_1_0_0_n_n.contr.Idx) : (dot_S64x2560_S512x2560_S64x512_1_1_0_0_n_n.rhsIdx i q 0).val = (i 1).val := by
  unfold DotDims.rhsIdx
  rw [dif_neg (show ¬(0 : Fin S512x2560.rank) ∈ dot_S64x2560_S512x2560_S64x512_1_1_0_0_n_n.rhsBatch by decide),
    dif_pos (show (0 : Fin S512x2560.rank) ∈ dot_S64x2560_S512x2560_S64x512_1_1_0_0_n_n.rhsNonContracting by decide)]
  rfl

/-- Queries against keys, contracting the 64 channels: entry `(t, s)` is the sum over channels. -/
theorem qk_apply (l : FVec Ideal S64x512 .bf16) (r : FVec Ideal S64x2560 .bf16) (t : Fin 512) (s : Fin 2560) :
    matmul dot_S64x512_S64x2560_S512x2560_0_0_1_1_n_n none l r (constant (F := Ideal) S512x2560 .f32 0x00000000#32) (ix2 t s)
      = ∑ c : Fin 64, l (ix2 c t) * r (ix2 c s) := by
  refine (Ideal.matmul_constant_zero_apply dot_S64x512_S64x2560_S512x2560_0_0_1_1_n_n none l r (ix2 t s)).trans ?_
  rw [← Equiv.sum_comp (contrEquiv1 dot_S64x512_S64x2560_S512x2560_0_0_1_1_n_n 64 rfl rfl).symm]
  refine Finset.sum_congr rfl fun k _ => ?_
  have hk := contrEquiv1_symm_val dot_S64x512_S64x2560_S512x2560_0_0_1_1_n_n 64 rfl rfl k
  have el : dot_S64x512_S64x2560_S512x2560_0_0_1_1_n_n.lhsIdx (ix2 t s) ((contrEquiv1 dot_S64x512_S64x2560_S512x2560_0_0_1_1_n_n 64 rfl rfl).symm k) = ix2 k t :=
    funext fun a => Fin.ext (by
      match a with
      | ⟨0, _⟩ => exact (dot_S64x512_S64x2560_S512x2560_0_0_1_1_n_n.lhsIdx_val_of_single rfl _ _).trans hk
      | ⟨1, _⟩ => exact qk_lhs_1 _ _)
  have er : dot_S64x512_S64x2560_S512x2560_0_0_1_1_n_n.rhsIdx (ix2 t s) ((contrEquiv1 dot_S64x512_S64x2560_S512x2560_0_0_1_1_n_n 64 rfl rfl).symm k) = ix2 k s :=
    funext fun a => Fin.ext (by
      match a with
      | ⟨0, _⟩ => exact (dot_S64x512_S64x2560_S512x2560_0_0_1_1_n_n.rhsIdx_val_of_single rfl _ _).trans hk
      | ⟨1, _⟩ => exact qk_rhs_1 _ _)
  rw [el, er]

/-- Values against weights, contracting the 2560 key tokens: entry `(c, t)` is the sum over key tokens. -/
theorem vw_apply (l : FVec Ideal S64x2560 .bf16) (r : FVec Ideal S512x2560 .bf16) (c : Fin 64) (t : Fin 512) :
    matmul dot_S64x2560_S512x2560_S64x512_1_1_0_0_n_n none l r (constant (F := Ideal) S64x512 .f32 0x00000000#32) (ix2 c t)
      = ∑ s : Fin 2560, l (ix2 c s) * r (ix2 t s) := by
  refine (Ideal.matmul_constant_zero_apply dot_S64x2560_S512x2560_S64x512_1_1_0_0_n_n none l r (ix2 c t)).trans ?_
  rw [← Equiv.sum_comp (contrEquiv1 dot_S64x2560_S512x2560_S64x512_1_1_0_0_n_n 2560 rfl rfl).symm]
  refine Finset.sum_congr rfl fun k _ => ?_
  have hk := contrEquiv1_symm_val dot_S64x2560_S512x2560_S64x512_1_1_0_0_n_n 2560 rfl rfl k
  have el : dot_S64x2560_S512x2560_S64x512_1_1_0_0_n_n.lhsIdx (ix2 c t) ((contrEquiv1 dot_S64x2560_S512x2560_S64x512_1_1_0_0_n_n 2560 rfl rfl).symm k) = ix2 c k :=
    funext fun a => Fin.ext (by
      match a with
      | ⟨0, _⟩ => exact vw_lhs_0 _ _
      | ⟨1, _⟩ => exact (dot_S64x2560_S512x2560_S64x512_1_1_0_0_n_n.lhsIdx_val_of_single rfl _ _).trans hk)
  have er : dot_S64x2560_S512x2560_S64x512_1_1_0_0_n_n.rhsIdx (ix2 c t) ((contrEquiv1 dot_S64x2560_S512x2560_S64x512_1_1_0_0_n_n 2560 rfl rfl).symm k) = ix2 t k :=
    funext fun a => Fin.ext (by
      match a with
      | ⟨0, _⟩ => exact vw_rhs_0 _ _
      | ⟨1, _⟩ => exact (dot_S64x2560_S512x2560_S64x512_1_1_0_0_n_n.rhsIdx_val_of_single rfl _ _).trans hk)
  rw [el, er]

/-! ## The body's stages, each read at an element -/

/-- The query column of token `t`. -/
abbrev qcol (x0 : Vec Ideal S1x64x512 .f32) (t : Fin 512) : Fin 64 → EReal := fun c' => x0 (ix3 (0 : Fin 1) c' t)

/-- An encoder block followed by a self block along the token axis, the unit axes dropped. -/
abbrev encSelf (e : Vec Ideal S1x64x512 .f32) (f : Vec Ideal S1x64x2048 .f32) : Fin 64 → Fin 2560 → EReal :=
  cat (fun c' s => e (ix3 (0 : Fin 1) c' s)) (fun c' s => f (ix3 (0 : Fin 1) c' s))

/-- The concatenation of the two blocks with their unit axes dropped, at an element. -/
theorem encSelf_apply (e : Vec Ideal S1x64x512 .f32) (f : Vec Ideal S1x64x2048 .f32) (c : Fin 64) (s : Fin 2560) :
    concatenate S64x2560 1 [⟨S64x512, shapeCast S64x512 e shapeCasts_S1x64x512_S64x512⟩,
        ⟨S64x2048, shapeCast S64x2048 f shapeCasts_S1x64x2048_S64x2048⟩] concatenates_S64x512_S64x2048_S64x2560_d1 (ix2 c s)
      = encSelf e f c s := by
  have he : (fun (c' : Fin 64) (s' : Fin 512) => shapeCast S64x512 e shapeCasts_S1x64x512_S64x512 (ix2 c' s'))
      = fun c' s' => e (ix3 (0 : Fin 1) c' s') :=
    funext fun c' => funext fun s' => shapeCast_1ab_ab_apply e shapeCasts_S1x64x512_S64x512 c' s'
  have hf : (fun (c' : Fin 64) (s' : Fin 2048) => shapeCast S64x2048 f shapeCasts_S1x64x2048_S64x2048 (ix2 c' s'))
      = fun c' s' => f (ix3 (0 : Fin 1) c' s') :=
    funext fun c' => funext fun s' => shapeCast_1ab_ab_apply f shapeCasts_S1x64x2048_S64x2048 c' s'
  refine (concat_apply _ _ c s).trans ?_
  rw [he, hf]

/-- The scaled queries. -/
def qS (x0 : Vec Ideal S1x64x512 .f32) : FVec Ideal S64x512 .bf16 :=
  truncf .bf16 (mulf (shapeCast S64x512 x0 shapeCasts_S1x64x512_S64x512)
    (broadcast S64x512 (Scalar.ofBits (F := Ideal) .f32 0x3EB504F3#32))) bitsLt_bf16_f32

theorem qS_apply (x0 : Vec Ideal S1x64x512 .f32) (c : Fin 64) (t : Fin 512) :
    qS x0 (ix2 c t) = qcol x0 t c * scale :=
  congrArg (· * scale) (shapeCast_1ab_ab_apply x0 shapeCasts_S1x64x512_S64x512 c t)

/-- The scaled keys: encoder keys, then self keys. -/
def kS (x6 : Vec Ideal S1x64x512 .f32) (x2 : Vec Ideal S1x64x2048 .f32) : FVec Ideal S64x2560 .bf16 :=
  truncf .bf16 (mulf (concatenate S64x2560 1 [⟨S64x512, shapeCast S64x512 x6 shapeCasts_S1x64x512_S64x512⟩,
      ⟨S64x2048, shapeCast S64x2048 x2 shapeCasts_S1x64x2048_S64x2048⟩] concatenates_S64x512_S64x2048_S64x2560_d1)
    (broadcast S64x2560 (Scalar.ofBits (F := Ideal) .f32 0x3EB504F3#32))) bitsLt_bf16_f32

theorem kS_apply (x6 : Vec Ideal S1x64x512 .f32) (x2 : Vec Ideal S1x64x2048 .f32) (c : Fin 64) (s : Fin 2560) :
    kS x6 x2 (ix2 c s) = encSelf x6 x2 c s * scale :=
  congrArg (· * scale) (encSelf_apply x6 x2 c s)

/-- The values: encoder values, then self values. -/
def vS (x8 : Vec Ideal S1x64x512 .f32) (x4 : Vec Ideal S1x64x2048 .f32) : FVec Ideal S64x2560 .bf16 :=
  truncf .bf16 (concatenate S64x2560 1 [⟨S64x512, shapeCast S64x512 x8 shapeCasts_S1x64x512_S64x512⟩,
      ⟨S64x2048, shapeCast S64x2048 x4 shapeCasts_S1x64x2048_S64x2048⟩] concatenates_S64x512_S64x2048_S64x2560_d1) bitsLt_bf16_f32

theorem vS_apply (x8 : Vec Ideal S1x64x512 .f32) (x4 : Vec Ideal S1x64x2048 .f32) (c : Fin 64) (s : Fin 2560) :
    vS x8 x4 (ix2 c s) = encSelf x8 x4 c s :=
  encSelf_apply x8 x4 c s

/-- The logits: scaled queries against scaled keys. -/
def lgS (x0 : Vec Ideal S1x64x512 .f32) (x2 : Vec Ideal S1x64x2048 .f32) (x6 : Vec Ideal S1x64x512 .f32) :
    FVec Ideal S512x2560 .f32 :=
  matmul dot_S64x512_S64x2560_S512x2560_0_0_1_1_n_n none (qS x0) (kS x6 x2) (constant (F := Ideal) S512x2560 .f32 0x00000000#32)

theorem lgS_apply (x0 : Vec Ideal S1x64x512 .f32) (x2 : Vec Ideal S1x64x2048 .f32) (x6 : Vec Ideal S1x64x512 .f32)
    (t : Fin 512) (s : Fin 2560) : lgS x0 x2 x6 (ix2 t s) = logit (qcol x0 t) (encSelf x6 x2) s := by
  unfold lgS logit
  refine (qk_apply _ _ t s).trans ?_
  exact Finset.sum_congr rfl fun c _ => by rw [qS_apply, kS_apply]

/-- The row maxima of the logits. -/
def mxS (x0 : Vec Ideal S1x64x512 .f32) (x2 : Vec Ideal S1x64x2048 .f32) (x6 : Vec Ideal S1x64x512 .f32) :
    FVec Ideal S512 .f32 :=
  multiReduction (F := Ideal) .maximumf [1] S512 (lgS x0 x2 x6) 0xFF800000#32 reduces_S512x2560_S512 (.inl rfl) rfl

theorem mxS_apply (x0 : Vec Ideal S1x64x512 .f32) (x2 : Vec Ideal S1x64x2048 .f32) (x6 : Vec Ideal S1x64x512 .f32)
    (t : Fin 512) : mxS x0 x2 x6 (ix1 t) = rowMax (qcol x0 t) (encSelf x6 x2) := by
  unfold mxS rowMax
  refine (rowmax_apply _ t).trans ?_
  exact congrArg (fun f => Finset.fold max negInf f (Finset.univ : Finset (Fin 2560)))
    (funext fun s => lgS_apply x0 x2 x6 t s)

/-- The shifted exponentials. -/
def exS (x0 : Vec Ideal S1x64x512 .f32) (x2 : Vec Ideal S1x64x2048 .f32) (x6 : Vec Ideal S1x64x512 .f32) :
    FVec Ideal S512x2560 .f32 :=
  exp (subf (lgS x0 x2 x6)
    (broadcastTo S512x2560 (shapeCast S512x1 (mxS x0 x2 x6) shapeCasts_S512_S512x1) broadcasts_S512x1_S512x2560))

theorem exS_apply (x0 : Vec Ideal S1x64x512 .f32) (x2 : Vec Ideal S1x64x2048 .f32) (x6 : Vec Ideal S1x64x512 .f32)
    (t : Fin 512) (s : Fin 2560) : exS x0 x2 x6 (ix2 t s) = expo (qcol x0 t) (encSelf x6 x2) s := by
  unfold expo
  show Ideal.exp (lgS x0 x2 x6 (ix2 t s)
    - broadcastTo S512x2560 (shapeCast S512x1 (mxS x0 x2 x6) shapeCasts_S512_S512x1) broadcasts_S512x1_S512x2560 (ix2 t s)) = _
  rw [keepdims_apply, lgS_apply, mxS_apply]

/-- The row sums of the exponentials. -/
def smS (x0 : Vec Ideal S1x64x512 .f32) (x2 : Vec Ideal S1x64x2048 .f32) (x6 : Vec Ideal S1x64x512 .f32) :
    FVec Ideal S512 .f32 :=
  multiReduction (F := Ideal) .add [1] S512 (exS x0 x2 x6) 0x00000000#32 reduces_S512x2560_S512 (.inl rfl) rfl

theorem smS_apply (x0 : Vec Ideal S1x64x512 .f32) (x2 : Vec Ideal S1x64x2048 .f32) (x6 : Vec Ideal S1x64x512 .f32)
    (t : Fin 512) : smS x0 x2 x6 (ix1 t) = rowSum (qcol x0 t) (encSelf x6 x2) := by
  unfold smS rowSum
  refine (rowsum_apply _ t).trans ?_
  exact Finset.sum_congr rfl fun s _ => exS_apply x0 x2 x6 t s

/-- The softmax weights. -/
def wtS (x0 : Vec Ideal S1x64x512 .f32) (x2 : Vec Ideal S1x64x2048 .f32) (x6 : Vec Ideal S1x64x512 .f32) :
    FVec Ideal S512x2560 .bf16 :=
  truncf .bf16 (divf (exS x0 x2 x6)
    (broadcastTo S512x2560 (shapeCast S512x1 (smS x0 x2 x6) shapeCasts_S512_S512x1) broadcasts_S512x1_S512x2560))
    bitsLt_bf16_f32

theorem wtS_apply (x0 : Vec Ideal S1x64x512 .f32) (x2 : Vec Ideal S1x64x2048 .f32) (x6 : Vec Ideal S1x64x512 .f32)
    (t : Fin 512) (s : Fin 2560) : wtS x0 x2 x6 (ix2 t s) = weight (qcol x0 t) (encSelf x6 x2) s := by
  unfold weight
  show Ideal.div (exS x0 x2 x6 (ix2 t s))
    (broadcastTo S512x2560 (shapeCast S512x1 (smS x0 x2 x6) shapeCasts_S512_S512x1) broadcasts_S512x1_S512x2560 (ix2 t s)) = _
  rw [keepdims_apply, exS_apply, smS_apply]

/-! ## The body's stored block -/

/-- The body's arithmetic is the composition of the stages above, the unit axis restored. -/
theorem pay_stages (x0 : Vec Ideal S1x64x512 .f32) (x2 x4 : Vec Ideal S1x64x2048 .f32) (x6 x8 : Vec Ideal S1x64x512 .f32) :
    k0_pay1 (F := Ideal) x0 x2 x4 x6 x8
      = shapeCast S1x64x512 (matmul dot_S64x2560_S512x2560_S64x512_1_1_0_0_n_n none (vS x8 x4) (wtS x0 x2 x6)
          (constant (F := Ideal) S64x512 .f32 0x00000000#32)) shapeCasts_S64x512_S1x64x512 := rfl

/-- At channel `c` and query token `t` the stored block is the attention output of query column `t` against the
    concatenated keys and values. -/
theorem pay_eq (x0 : Vec Ideal Cert.KernelIdeal.S1x64x512 .f32) (x2 x4 : Vec Ideal Cert.KernelIdeal.S1x64x2048 .f32)
    (x6 x8 : Vec Ideal Cert.KernelIdeal.S1x64x512 .f32) (c : Fin 64) (t : Fin 512) :
    Cert.KernelIdeal.Gen.k0_pay1 (F := Ideal) x0 x2 x4 x6 x8 (ValueIdx.ix3 (0 : Fin 1) c t)
      = Cert.Attn.attnCol (fun c' => x0 (ValueIdx.ix3 (0 : Fin 1) c' t))
          (Cert.Attn.cat (fun c' s => x6 (ValueIdx.ix3 (0 : Fin 1) c' s)) (fun c' s => x2 (ValueIdx.ix3 (0 : Fin 1) c' s)))
          (Cert.Attn.cat (fun c' s => x8 (ValueIdx.ix3 (0 : Fin 1) c' s)) (fun c' s => x4 (ValueIdx.ix3 (0 : Fin 1) c' s))) c := by
  rw [pay_stages]
  refine (shapeCast_ab_1ab_apply _ shapeCasts_S64x512_S1x64x512 (0 : Fin 1) c t).trans ?_
  refine (vw_apply _ _ c t).trans ?_
  unfold attnCol
  exact Finset.sum_congr rfl fun s _ => by rw [vS_apply, wtS_apply]

end Cert.Attn.Pay

end
-- ==== Proof.KIValue.lean ====
/-
  What the idealized kernel's run leaves in its result buffer, as one function of the arguments. The region's result
  array has one block per grid point (head b, all 64 channels, tokens 512·i … 512·i + 511), every block written back,
  and the blocks tile the array; the block point (b, i) writes is the body's payload of the five input blocks at that
  point, which entry by entry is the attention output of head b's query column at the token against head b's
  encoder-then-self keys and values — the whole-array function `Cert.Attn.attn` of the two packed arrays, read through
  the block. So the array ends at that function, and the program's result is its last reshape.
-/
import proofs.«165959_j7404523618828_2_alg».proof.Proof.KIRun
import proofs.«165959_j7404523618828_2_alg».proof.Proof.PayAttn
import proofs.«165959_j7404523618828_2_alg».proof.Proof.AttnSpec
import Idealize.ShloMosaic.Lib.Pipeline.Value
import Idealize.ShloMosaic.Lib.StableHlo.Run
import Idealize.ShloMosaic.Lib.ValueIdx

set_option maxRecDepth 16384

noncomputable section

namespace Cert.KernelIdeal.AttnValue

open Cert.KernelIdeal Cert.KernelIdeal.Gen Cert.KernelIdeal.Body Cert.KernelIdeal.Run
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The packed arrays the region finds -/

/-- The first packed array is the reshape of the first argument, -/
theorem V_packed0 (c : Dev nD) :
    (V m c main_v0 : S32x192x2048.Idx → EReal) = shapeCast S32x192x2048 (m ((c : Thread nD τ).loc main_arg0)) shapeCasts_S2x3072x2048_S32x192x2048 := by
  dsimp only [V, hostOps0]; after_results; rfl

/-- the second that of the second. -/
theorem V_packed1 (c : Dev nD) :
    (V m c main_v1 : S32x128x512.Idx → EReal) = shapeCast S32x128x512 (m ((c : Thread nD τ).loc main_arg1)) shapeCasts_S2x2048x512_S32x128x512 := by
  dsimp only [V, hostOps0]; after_results; rfl

/-! ## The index maps, decided over the grid -/

/-- At every point the five input blocks sit at the output block's head; the query block also at its token tile; the
    key and value blocks at channel blocks 1 and 2 of the first packed array, the encoder ones at 0 and 1 of the second. -/
theorem idx_facts : ∀ t : Fin cfg0.N,
    win0_0.index t (0 : Fin 3) = win0_5.index t (0 : Fin 3) ∧ win0_0.index t (1 : Fin 3) = 0 ∧ win0_0.index t (2 : Fin 3) = win0_5.index t (2 : Fin 3)
    ∧ win0_1.index t (0 : Fin 3) = win0_5.index t (0 : Fin 3) ∧ win0_1.index t (1 : Fin 3) = 1 ∧ win0_1.index t (2 : Fin 3) = 0
    ∧ win0_2.index t (0 : Fin 3) = win0_5.index t (0 : Fin 3) ∧ win0_2.index t (1 : Fin 3) = 2 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 1 ∧ win0_4.index t (2 : Fin 3) = 0
    ∧ win0_5.index t (1 : Fin 3) = 0 ∧ win0_5.index t (0 : Fin 3) ≤ 31 ∧ win0_5.index t (2 : Fin 3) ≤ 3 :=
  (by decide +kernel : ∀ t : Fin grid0.N, _)

/-- Every (head, token tile) is some point's output block. -/
theorem idx_onto : ∀ (q0 : Fin 32) (q2 : Fin 4), ∃ t : Fin cfg0.N, win0_5.index t = ![q0.val, 0, q2.val] :=
  (by decide +kernel : ∀ (q0 : Fin 32) (q2 : Fin 4), ∃ t : Fin grid0.N, win0_5.index t = ![q0.val, 0, q2.val])

/-! ## A block entry is an array entry -/

section Blocks
variable (c : Dev nD) (t : Fin cfg0.N)

/-- The head and the token tile of point `t`. -/
abbrev hd : Fin 32 := ⟨win0_5.index t (0 : Fin 3), by have := (idx_facts t).2.2.2.2.2.2.2.2.2.2.2.2.2.2.2.2.1; omega⟩
theorem tok_lt (tt : Fin 512) : win0_5.index t (2 : Fin 3) * 512 + tt.val < 2048 := by
  have := (idx_facts t).2.2.2.2.2.2.2.2.2.2.2.2.2.2.2.2.2; have := tt.isLt; omega

theorem blk0_apply (cc : Fin 64) (tt : Fin 512) :
    iblk m c 0 t (ix3 (0 : Fin 1) cc tt) = V m c main_v0 (ix3 (hd t) (⟨cc.val, by have := cc.isLt; omega⟩ : Fin 192) (⟨win0_5.index t (2 : Fin 3) * 512 + tt.val, tok_lt t tt⟩ : Fin 2048)) := by
  show V m c main_v0 (((cfg0.win 0).blk t).view.emb (ix3 (0 : Fin 1) cc tt)) = _
  refine congrArg (V m c main_v0) ?_
  obtain ⟨e00, e01, e02, -⟩ := idx_facts t
  funext a; apply Fin.ext
  match a with
  | ⟨0, _⟩ => show win0_0.index t (0 : Fin 3) * 1 + 1 * 0 = win0_5.index t (0 : Fin 3); omega
  | ⟨1, _⟩ => show win0_0.index t (1 : Fin 3) * 64 + 1 * cc.val = cc.val; omega
  | ⟨2, _⟩ => show win0_0.index t (2 : Fin 3) * 512 + 1 * tt.val = win0_5.index t (2 : Fin 3) * 512 + tt.val; omega

theorem blk1_apply (cc : Fin 64) (s : Fin 2048) :
    iblk m c 1 t (ix3 (0 : Fin 1) cc s) = V m c main_v0 (ix3 (hd t) (⟨64 + cc.val, by have := cc.isLt; omega⟩ : Fin 192) s) := by
  show V m c main_v0 (((cfg0.win 1).blk t).view.emb (ix3 (0 : Fin 1) cc s)) = _
  refine congrArg (V m c main_v0) ?_
  obtain ⟨-, -, -, e10, e11, e12, -⟩ := idx_facts t
  funext a; apply Fin.ext
  match a with
  | ⟨0, _⟩ => show win0_1.index t (0 : Fin 3) * 1 + 1 * 0 = win0_5.index t (0 : Fin 3); omega
  | ⟨1, _⟩ => show win0_1.index t (1 : Fin 3) * 64 + 1 * cc.val = 64 + cc.val; omega
  | ⟨2, _⟩ => show win0_1.index t (2 : Fin 3) * 2048 + 1 * s.val = s.val; omega

theorem blk2_apply (cc : Fin 64) (s : Fin 2048) :
    iblk m c 2 t (ix3 (0 : Fin 1) cc s) = V m c main_v0 (ix3 (hd t) (⟨128 + cc.val, by have := cc.isLt; omega⟩ : Fin 192) s) := by
  show V m c main_v0 (((cfg0.win 2).blk t).view.emb (ix3 (0 : Fin 1) cc s)) = _
  refine congrArg (V m c main_v0) ?_
  obtain ⟨-, -, -, -, -, -, e20, e21, e22, -⟩ := idx_facts t
  funext a; apply Fin.ext
  match a with
  | ⟨0, _⟩ => show win0_2.index t (0 : Fin 3) * 1 + 1 * 0 = win0_5.index t (0 : Fin 3); omega
  | ⟨1, _⟩ => show win0_2.index t (1 : Fin 3) * 64 + 1 * cc.val = 128 + cc.val; omega
  | ⟨2, _⟩ => show win0_2.index t (2 : Fin 3) * 2048 + 1 * s.val = s.val; omega

theorem blk3_apply (cc : Fin 64) (s : Fin 512) :
    iblk m c 3 t (ix3 (0 : Fin 1) cc s) = V m c main_v1 (ix3 (hd t) (⟨cc.val, by have := cc.isLt; omega⟩ : Fin 128) s) := by
  show V m c main_v1 (((cfg0.win 3).blk t).view.emb (ix3 (0 : Fin 1) cc s)) = _
  refine congrArg (V m c main_v1) ?_
  obtain ⟨-, -, -, -, -, -, -, -, -, e30, e31, e32, -⟩ := idx_facts t
  funext a; apply Fin.ext
  match a with
  | ⟨0, _⟩ => show win0_3.index t (0 : Fin 3) * 1 + 1 * 0 = win0_5.index t (0 : Fin 3); omega
  | ⟨1, _⟩ => show win0_3.index t (1 : Fin 3) * 64 + 1 * cc.val = cc.val; omega
  | ⟨2, _⟩ => show win0_3.index t (2 : Fin 3) * 512 + 1 * s.val = s.val; omega

theorem blk4_apply (cc : Fin 64) (s : Fin 512) :
    iblk m c 4 t (ix3 (0 : Fin 1) cc s) = V m c main_v1 (ix3 (hd t) (⟨64 + cc.val, by have := cc.isLt; omega⟩ : Fin 128) s) := by
  show V m c main_v1 (((cfg0.win 4).blk t).view.emb (ix3 (0 : Fin 1) cc s)) = _
  refine congrArg (V m c main_v1) ?_
  obtain ⟨-, -, -, -, -, -, -, -, -, -, -, -, e40, e41, e42, -⟩ := idx_facts t
  funext a; apply Fin.ext
  match a with
  | ⟨0, _⟩ => show win0_4.index t (0 : Fin 3) * 1 + 1 * 0 = win0_5.index t (0 : Fin 3); omega
  | ⟨1, _⟩ => show win0_4.index t (1 : Fin 3) * 64 + 1 * cc.val = 64 + cc.val; omega
  | ⟨2, _⟩ => show win0_4.index t (2 : Fin 3) * 512 + 1 * s.val = s.val; omega

/-- Where entry (0, cc, tt) of the output block sits in the result's array. -/
theorem blk5_emb (cc : Fin 64) (tt : Fin 512) :
    ((cfg0.win 5).blk t).view.emb (ix3 (0 : Fin 1) cc tt)
      = (ix3 (hd t) cc (⟨win0_5.index t (2 : Fin 3) * 512 + tt.val, tok_lt t tt⟩ : Fin 2048) : S32x64x2048.Idx) := by
  have e51 := (idx_facts t).2.2.2.2.2.2.2.2.2.2.2.2.2.2.2.1
  funext a; apply Fin.ext
  match a with
  | ⟨0, _⟩ => show win0_5.index t (0 : Fin 3) * 1 + 1 * 0 = win0_5.index t (0 : Fin 3); omega
  | ⟨1, _⟩ => show win0_5.index t (1 : Fin 3) * 64 + 1 * cc.val = cc.val; omega
  | ⟨2, _⟩ => show win0_5.index t (2 : Fin 3) * 512 + 1 * tt.val = win0_5.index t (2 : Fin 3) * 512 + tt.val; omega

end Blocks

/-! ## What a point writes back -/

/-- The whole-array function at an index given by coordinates. -/
theorem attn_at (A : S32x192x2048.Idx → EReal) (B : S32x128x512.Idx → EReal) (b : Fin 32) (cc : Fin 64) (tk : Fin 2048) :
    Cert.Attn.attn A B (ix3 b cc tk)
      = Cert.Attn.attnCol (fun c' => A (ix3 b (⟨c'.val, by have := c'.isLt; omega⟩ : Fin 192) tk))
          (Cert.Attn.cat (fun c' s => B (ix3 b (⟨c'.val, by have := c'.isLt; omega⟩ : Fin 128) s))
            (fun c' s => A (ix3 b (⟨64 + c'.val, by have := c'.isLt; omega⟩ : Fin 192) s)))
          (Cert.Attn.cat (fun c' s => B (ix3 b (⟨64 + c'.val, by have := c'.isLt; omega⟩ : Fin 128) s))
            (fun c' s => A (ix3 b (⟨128 + c'.val, by have := c'.isLt; omega⟩ : Fin 192) s))) cc := rfl

/-- What point `t` writes back is block `t` of the whole-array function of the packed arrays. -/
theorem flushed_eq (c : Dev nD) (t : Fin cfg0.N) :
    (dats m 0 c).flushed 5 t = ((cfg0.win 5).blk t).view.read (Elt Ideal) (Cert.Attn.attn (V m c main_v0) (V m c main_v1)) := by
  show (cfg0.win 5).cut (grid0.coords t) ((dats m 0 c).after 5 t) = _
  rw [after5]
  unfold outBlk
  rw [View.canon_unit_zero hz3]
  simp only [View.ld_unit_zero (S := S1x64x512) hz3, View.ld_unit_zero (S := S1x64x2048) hz3]
  funext j
  obtain ⟨p, cc, tt, rfl⟩ : ∃ (p : Fin 1) (cc : Fin 64) (tt : Fin 512), j = ix3 p cc tt := ⟨j 0, j 1, j 2, eq_ix3 j⟩
  obtain rfl : p = 0 := Subsingleton.elim _ _
  show k0_pay1 (F := Ideal) (iblk m c 0 t) (iblk m c 1 t) (iblk m c 2 t) (iblk m c 3 t) (iblk m c 4 t) (ix3 (0 : Fin 1) cc tt)
    = Cert.Attn.attn (V m c main_v0) (V m c main_v1) (((cfg0.win 5).blk t).view.emb (ix3 (0 : Fin 1) cc tt))
  refine (Cert.Attn.Pay.pay_eq (iblk m c 0 t) (iblk m c 1 t) (iblk m c 2 t) (iblk m c 3 t) (iblk m c 4 t) cc tt).trans ?_
  rw [blk5_emb, attn_at]
  have hq : (fun c' : Fin 64 => iblk m c 0 t (ix3 (0 : Fin 1) c' tt))
      = fun c' : Fin 64 => V m c main_v0 (ix3 (hd t) (⟨c'.val, by have := c'.isLt; omega⟩ : Fin 192) (⟨win0_5.index t (2 : Fin 3) * 512 + tt.val, tok_lt t tt⟩ : Fin 2048)) :=
    funext fun c' => blk0_apply m c t c' tt
  have hek : (fun (c' : Fin 64) (s : Fin 512) => iblk m c 3 t (ix3 (0 : Fin 1) c' s))
      = fun (c' : Fin 64) (s : Fin 512) => V m c main_v1 (ix3 (hd t) (⟨c'.val, by have := c'.isLt; omega⟩ : Fin 128) s) :=
    funext fun c' => funext fun s => blk3_apply m c t c' s
  have hk : (fun (c' : Fin 64) (s : Fin 2048) => iblk m c 1 t (ix3 (0 : Fin 1) c' s))
      = fun (c' : Fin 64) (s : Fin 2048) => V m c main_v0 (ix3 (hd t) (⟨64 + c'.val, by have := c'.isLt; omega⟩ : Fin 192) s) :=
    funext fun c' => funext fun s => blk1_apply m c t c' s
  have hev : (fun (c' : Fin 64) (s : Fin 512) => iblk m c 4 t (ix3 (0 : Fin 1) c' s))
      = fun (c' : Fin 64) (s : Fin 512) => V m c main_v1 (ix3 (hd t) (⟨64 + c'.val, by have := c'.isLt; omega⟩ : Fin 128) s) :=
    funext fun c' => funext fun s => blk4_apply m c t c' s
  have hv : (fun (c' : Fin 64) (s : Fin 2048) => iblk m c 2 t (ix3 (0 : Fin 1) c' s))
      = fun (c' : Fin 64) (s : Fin 2048) => V m c main_v0 (ix3 (hd t) (⟨128 + c'.val, by have := c'.isLt; omega⟩ : Fin 192) s) :=
    funext fun c' => funext fun s => blk2_apply m c t c' s
  rw [hq, hek, hk, hev, hv]

/-! ## The blocks tile the array -/

theorem mem_blk (t : Fin cfg0.N) (i : S32x64x2048.Idx) :
    i ∈ ((cfg0.win 5).blk t).view.set ↔ ∀ a : Fin 3, win0_5.index t a * S1x64x512.size a ≤ (i a).val ∧ (i a).val < win0_5.index t a * S1x64x512.size a + S1x64x512.size a := by
  show i ∈ ((View.whole main_v2).slice (win0_5.rect t)).set ↔ _
  rw [View.set_slice_whole, Rect.mem_set_unit]
  exact Iff.rfl

/-- Every entry of the result's array is in the block of the point at its head and token tile. -/
theorem cover (i : S32x64x2048.Idx) : ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 2048 := (i 2).isLt
  obtain ⟨t, ht⟩ := idx_onto ⟨(i 0).val, hi0⟩ ⟨(i 2).val / 512, by omega⟩
  have q0 : win0_5.index t (0 : Fin 3) = (i 0).val := congrFun ht 0
  have q1 : win0_5.index t (1 : Fin 3) = 0 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 512 ≤ (i 2).val ∧ (i 2).val < win0_5.index t (2 : Fin 3) * 512 + 512; omega

/-- The result's array after the region is the whole-array function of the packed arrays. -/
theorem final (c : Dev nD) : outArr m c = Cert.Attn.attn (V m c main_v0) (V m c main_v1) :=
  (dats m 0 c).arrAt_eq_of_cover 5 (Cert.Attn.attn (V m c main_v0) (V m c main_v1)) (fun t _ => flushed_eq m c t) cover

/-! ## The program's result -/

/-- The result buffer ends at the reshape of that function of the reshaped arguments. -/
theorem result_eq (c : Dev nD) :
    (V₂ m c (Proc.devRef .tc main_v3) : S2x1024x2048.Idx → EReal)
      = shapeCast S2x1024x2048
          (Cert.Attn.attn (shapeCast S32x192x2048 (m ((c : Thread nD τ).loc main_arg0)) shapeCasts_S2x3072x2048_S32x192x2048)
            (shapeCast S32x128x512 (m ((c : Thread nD τ).loc main_arg1)) shapeCasts_S2x2048x512_S32x128x512))
          shapeCasts_S32x64x2048_S2x1024x2048 := by
  have h : (V₂ m c (Proc.devRef .tc main_v3) : S2x1024x2048.Idx → EReal)
      = shapeCast S2x1024x2048 (V₁ m c (Proc.devRef .tc main_v2) : S32x64x2048.Idx → EReal) shapeCasts_S32x64x2048_S2x1024x2048 := by
    show StableHlo.after hostOps1 (V₁ m c) (Proc.devRef .tc main_v3) = _
    after_results; rfl
  rw [h, V₁_out, final, V_packed0, V_packed1]

/-- The idealized kernel's run: the result at that function of the arguments, the arguments unchanged. -/
theorem run : θ_run defs (onTc (τ := τ) (main (F := Ideal))) ⟨m, fun _ => 0, ρ⟩ fun r => ∀ c : Dev nD,
      r.2.mem ((c : Thread nD τ).loc main_v3) = shapeCast S2x1024x2048
          (Cert.Attn.attn (shapeCast S32x192x2048 (m ((c : Thread nD τ).loc main_arg0)) shapeCasts_S2x3072x2048_S32x192x2048)
            (shapeCast S32x128x512 (m ((c : Thread nD τ).loc main_arg1)) shapeCasts_S2x2048x512_S32x128x512))
          shapeCasts_S32x64x2048_S2x1024x2048
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (result_eq m c), (h c).2.1, (h c).2.2⟩) (run_main m ρ)

end Cert.KernelIdeal.AttnValue

end
-- ==== Proof.RefAttn.lean ====
/-
  The reference program computes the attention function of the specification, entry by entry.

  Its two packed inputs are reshaped to A : [32, 192, 2048] (per head the query, key and value rows over the 2048 self
  tokens) and B : [32, 128, 512] (per head the encoder key and value rows over the 512 encoder tokens). The program slices
  the five row blocks out, joins encoder and self keys (and values) along the token axis, multiplies queries and keys by
  the common pre-scale, contracts them over the 64 channels into logits, subtracts the row maximum, exponentiates,
  divides by the row sum and contracts the values against these weights over the 2560 tokens. Read at the index
  (head, channel, token), each stage is the corresponding function of the specification for the head's query column at
  the token and the head's joined keys and values.
-/
import proofs.«165959_j7404523618828_2_alg».proof.Proof.Gen.ReferenceIdeal.Read
import proofs.«165959_j7404523618828_2_alg».proof.Proof.AttnSpec
import Idealize.ShloMosaic.Lib.ValueIdx
import Idealize.ShloMosaic.Lib.Pipeline.Value
import Idealize.ShloMosaic.PureOps.Reduce
import Idealize.ShloMosaic.PureOps.Ideal.Laws

noncomputable section

open scoped BigOperators

namespace Cert.Attn.Ref

open Cert.ReferenceIdeal Cert.ReferenceIdeal.Gen Cert.ReferenceIdeal.Read Idealize.ShloMosaic Idealize.ShloMosaic.ValueIdx

/-! ## The columns of one head -/

/-- The query column of head `h` at self token `t`: channels 0–63 of `A`. -/
def qcol (A : S32x192x2048.Idx → EReal) (h : Fin 32) (t : Fin 2048) : Fin 64 → EReal :=
  fun c => A (ix3 h (⟨c.val, by have := c.isLt; omega⟩ : Fin 192) t)

/-- The keys of head `h`: the encoder keys (channels 0–63 of `B`) followed by the self keys (channels 64–127 of `A`). -/
def keys (A : S32x192x2048.Idx → EReal) (B : S32x128x512.Idx → EReal) (h : Fin 32) : Fin 64 → Fin 2560 → EReal :=
  cat (fun c s => B (ix3 h (⟨c.val, by have := c.isLt; omega⟩ : Fin 128) s))
      (fun c s => A (ix3 h (⟨64 + c.val, by have := c.isLt; omega⟩ : Fin 192) s))

/-- The values of head `h`: the encoder values (channels 64–127 of `B`) followed by the self values (channels 128–191 of `A`). -/
def vals (A : S32x192x2048.Idx → EReal) (B : S32x128x512.Idx → EReal) (h : Fin 32) : Fin 64 → Fin 2560 → EReal :=
  cat (fun c s => B (ix3 h (⟨64 + c.val, by have := c.isLt; omega⟩ : Fin 128) s))
      (fun c s => A (ix3 h (⟨128 + c.val, by have := c.isLt; omega⟩ : Fin 192) s))

/-- The specification at the entry (head, channel, token), in terms of the head's columns. -/
theorem attn_ix3 (A : S32x192x2048.Idx → EReal) (B : S32x128x512.Idx → EReal) (h : Fin 32) (c : Fin 64) (t : Fin 2048) :
    attn A B (ix3 h c t) = attnCol (qcol A h t) (keys A B h) (vals A B h) c := rfl

variable (x0 : (⟨S2x3072x2048, .f32⟩ : BufTy).Contents (Elt Ideal)) (x1 : (⟨S2x2048x512, .f32⟩ : BufTy).Contents (Elt Ideal))

/-- The first reshaped input. -/
abbrev arrA : S32x192x2048.Idx → EReal := val_main_v0 (F := Ideal) x0
/-- The second reshaped input. -/
abbrev arrB : S32x128x512.Idx → EReal := val_main_v4 (F := Ideal) x1

/-! ## The scaled queries -/

/-- The scaled query at (head, channel, token) is the head's query column at the token, scaled. -/
theorem q_scaled (h : Fin 32) (c : Fin 64) (t : Fin 2048) :
    val_main_v10 (F := Ideal) x0 (ix3 h c t) = qcol (arrA x0) h t c * scale := by
  rw [val_main_v10_apply, val_main_v1_apply, val_main_v9_apply, val_main_cst_apply]
  rfl

/-! ## The joined keys and values -/

/-- The joined keys at (head, channel, token): the encoder keys below token 512, the self keys from there on. -/
theorem keys_apply (h : Fin 32) (c : Fin 64) (s : Fin 2560) :
    val_main_v7 (F := Ideal) x0 x1 (ix3 h c s) = keys (arrA x0) (arrB x1) h c s := by
  unfold val_main_v7 keys cat
  by_cases hs : s.val < 512
  · rw [dif_pos hs]
    refine (concatenate_pair_apply_left _ _ _ concatenates_S32x64x512_S32x64x2048_S32x64x2560_d2 (ix3 h c s) rfl
      (ix3 h c (⟨s.val, hs⟩ : Fin 512)) ?_).trans ?_
    · intro b; match b with
      | ⟨0, _⟩ => rfl
      | ⟨1, _⟩ => rfl
      | ⟨2, _⟩ => rfl
    · rw [val_main_v5_apply]; rfl
  · rw [dif_neg hs]
    have hs' : s.val - 512 < 2048 := by have := s.isLt; omega
    refine (concatenate_pair_apply_right _ _ _ concatenates_S32x64x512_S32x64x2048_S32x64x2560_d2 (ix3 h c s) rfl rfl
      (ix3 h c (⟨s.val - 512, hs'⟩ : Fin 2048)) ?_ ?_).trans ?_
    · intro b hb; match b with
      | ⟨0, _⟩ => rfl
      | ⟨1, _⟩ => rfl
      | ⟨2, _⟩ => exact absurd rfl hb
    · show s.val - 512 + 512 = s.val; omega
    · rw [val_main_v2_apply]; rfl

/-- The joined values at (head, channel, token): the encoder values below token 512, the self values from there on. -/
theorem vals_apply (h : Fin 32) (c : Fin 64) (s : Fin 2560) :
    val_main_v8 (F := Ideal) x0 x1 (ix3 h c s) = vals (arrA x0) (arrB x1) h c s := by
  unfold val_main_v8 vals cat
  by_cases hs : s.val < 512
  · rw [dif_pos hs]
    refine (concatenate_pair_apply_left _ _ _ concatenates_S32x64x512_S32x64x2048_S32x64x2560_d2 (ix3 h c s) rfl
      (ix3 h c (⟨s.val, hs⟩ : Fin 512)) ?_).trans ?_
    · intro b; match b with
      | ⟨0, _⟩ => rfl
      | ⟨1, _⟩ => rfl
      | ⟨2, _⟩ => rfl
    · rw [val_main_v6_apply]; rfl
  · rw [dif_neg hs]
    have hs' : s.val - 512 < 2048 := by have := s.isLt; omega
    refine (concatenate_pair_apply_right _ _ _ concatenates_S32x64x512_S32x64x2048_S32x64x2560_d2 (ix3 h c s) rfl rfl
      (ix3 h c (⟨s.val - 512, hs'⟩ : Fin 2048)) ?_ ?_).trans ?_
    · intro b hb; match b with
      | ⟨0, _⟩ => rfl
      | ⟨1, _⟩ => rfl
      | ⟨2, _⟩ => exact absurd rfl hb
    · show s.val - 512 + 512 = s.val; omega
    · rw [val_main_v3_apply]; rfl

/-- The scaled keys at (head, channel, token). -/
theorem k_scaled (h : Fin 32) (c : Fin 64) (s : Fin 2560) :
    val_main_v12 (F := Ideal) x0 x1 (ix3 h c s) = keys (arrA x0) (arrB x1) h c s * scale := by
  rw [val_main_v12_apply, keys_apply, val_main_v11_apply, val_main_cst_0_apply]
  rfl

/-! ## The logits -/

/-- The logit at (head, query token, key token): the scaled query column against the scaled key column, over channels. -/
theorem logit_apply (h : Fin 32) (t : Fin 2048) (s : Fin 2560) :
    val_main_v13 (F := Ideal) x0 x1 (ix3 h t s) = logit (qcol (arrA x0) h t) (keys (arrA x0) (arrB x1) h) s := by
  rw [val_main_v13_apply]
  unfold logit
  refine Finset.sum_congr rfl fun k _ => ?_
  have el : lidx_main_v13 (ix3 h t s) k = ix3 h k t := funext fun a => Fin.ext (by
    match a with
    | ⟨0, _⟩ => rfl
    | ⟨1, _⟩ => rfl
    | ⟨2, _⟩ => rfl)
  have er : ridx_main_v13 (ix3 h t s) k = ix3 h k s := funext fun a => Fin.ext (by
    match a with
    | ⟨0, _⟩ => rfl
    | ⟨1, _⟩ => rfl
    | ⟨2, _⟩ => rfl)
  rw [el, er, q_scaled, k_scaled]

/-! ## The row maximum -/

/-- The token axis of the logits is the one the row reductions drop. -/
theorem reduces_tokens : S32x2048x2560.Reduces [2] S32x2048 := by decide

/-- The row (head, query token) with key token `k` put back is (head, query token, `k`). -/
theorem lift_row (h : Fin 32) (t : Fin 2048) (k : Fin (S32x2048x2560.size 2)) :
    reduces_tokens.lift (ix2 h t) k = ix3 h t (⟨k.val, k.isLt⟩ : Fin 2560) := by
  funext c; apply Fin.ext
  fin_cases c <;> rfl

/-- A maximum with −∞ on the left is the other operand. -/
theorem negInf_max (y : EReal) : max negInf y = y := by
  unfold negInf; simp [Ideal.ofBits, Ideal.ieee]

/-- The row maximum at (head, query token) is the greatest logit of the column. -/
theorem rowMax_apply (h : Fin 32) (t : Fin 2048) :
    val_main_v14 (F := Ideal) x0 x1 (ix2 h t) = rowMax (qcol (arrA x0) h t) (keys (arrA x0) (arrB x1) h) := by
  unfold val_main_v14 rowMax
  rw [Host.reduce_eq_fold_single FloatOps.maximumf _ _ reducesTo_S32x2048x2560_S32x2048_d2 reduces_tokens h_S_]
  have hf : (val_main_v13 (F := Ideal) x0 x1 ∘ reduces_tokens.lift (ix2 h t))
      = fun k : Fin 2560 => logit (qcol (arrA x0) h t) (keys (arrA x0) (arrB x1) h) k :=
    funext fun k => (congrArg (val_main_v13 (F := Ideal) x0 x1) (lift_row h t k)).trans (logit_apply x0 x1 h t _)
  exact congrArg (fun f => Finset.fold max negInf f (Finset.univ : Finset (Fin 2560))) hf

/-- The maximum of the row maximum with −∞ is the row maximum, and its two broadcasts read it at the row. -/
theorem shift_apply (h : Fin 32) (t : Fin 2048) (s : Fin 2560) :
    val_main_v18 (F := Ideal) x0 x1 (ix3 h t s) = rowMax (qcol (arrA x0) h t) (keys (arrA x0) (arrB x1) h) := by
  rw [val_main_v18_apply, val_main_v17_apply]
  have e : idx_main_v17 (idx_main_v18 (ix3 h t s)) = ix2 h t := funext fun a => Fin.ext (by
    match a with
    | ⟨0, _⟩ => rfl
    | ⟨1, _⟩ => rfl)
  rw [e, val_main_v16_apply, val_main_v15_apply, val_main_cst_2_apply, rowMax_apply]
  exact negInf_max _

/-! ## The exponentials, their row sum and the weights -/

/-- The shifted exponential at (head, query token, key token). -/
theorem expo_apply (h : Fin 32) (t : Fin 2048) (s : Fin 2560) :
    val_main_v20 (F := Ideal) x0 x1 (ix3 h t s) = expo (qcol (arrA x0) h t) (keys (arrA x0) (arrB x1) h) s := by
  rw [val_main_v20_apply, val_main_v19_apply, logit_apply, shift_apply]
  rfl

/-- The row sum at (head, query token) is the softmax denominator of the column. -/
theorem rowSum_apply (h : Fin 32) (t : Fin 2048) :
    val_main_v21 (F := Ideal) x0 x1 (ix2 h t) = rowSum (qcol (arrA x0) h t) (keys (arrA x0) (arrB x1) h) := by
  rw [val_main_v21_apply, val_main_cst_3_apply]
  unfold rowSum
  refine (congrArg (· + _) Ideal.ofBits_zero_f32).trans ?_
  rw [zero_add]
  refine Finset.sum_congr rfl fun k _ => ?_
  have e : idx_main_v21 (ix2 h t) k = ix3 h t k := funext fun a => Fin.ext (by
    match a with
    | ⟨0, _⟩ => rfl
    | ⟨1, _⟩ => rfl
    | ⟨2, _⟩ => rfl)
  rw [e, expo_apply]

/-- The softmax weight at (head, query token, key token). -/
theorem weight_apply (h : Fin 32) (t : Fin 2048) (s : Fin 2560) :
    val_main_v24 (F := Ideal) x0 x1 (ix3 h t s) = weight (qcol (arrA x0) h t) (keys (arrA x0) (arrB x1) h) s := by
  rw [val_main_v24_apply, expo_apply, val_main_v23_apply, val_main_v22_apply]
  have e : idx_main_v22 (idx_main_v23 (ix3 h t s)) = ix2 h t := funext fun a => Fin.ext (by
    match a with
    | ⟨0, _⟩ => rfl
    | ⟨1, _⟩ => rfl)
  rw [e, rowSum_apply]
  rfl

/-! ## The result -/

/-- The reference program's result, before its final reshape, is the attention function of its two reshaped inputs. -/
theorem ref_eq :
    val_main_v25 (F := Ideal) x0 x1 = attn (val_main_v0 (F := Ideal) x0) (val_main_v4 (F := Ideal) x1) := by
  funext i
  obtain ⟨h, c, t, rfl⟩ : ∃ (h : Fin 32) (c : Fin 64) (t : Fin 2048), i = ix3 h c t := ⟨i 0, i 1, i 2, eq_ix3 i⟩
  rw [val_main_v25_apply, attn_ix3]
  unfold attnCol
  refine Finset.sum_congr rfl fun k _ => ?_
  have el : lidx_main_v25 (ix3 h c t) k = ix3 h c k := funext fun a => Fin.ext (by
    match a with
    | ⟨0, _⟩ => rfl
    | ⟨1, _⟩ => rfl
    | ⟨2, _⟩ => rfl)
  have er : ridx_main_v25 (ix3 h c t) k = ix3 h t k := funext fun a => Fin.ext (by
    match a with
    | ⟨0, _⟩ => rfl
    | ⟨1, _⟩ => rfl
    | ⟨2, _⟩ => rfl)
  rw [el, er, vals_apply, weight_apply]

end Cert.Attn.Ref

end
-- ==== Proof.lean ====
/-
  Equivalence over the extended reals of a Pallas attention kernel and its jnp reference, for
  qkv : f32[2, 3072, 2048] and encoder_kv : f32[2, 2048, 512].

  Both programs view qkv as 32 heads of 192 rows over 2048 tokens (query, key and value rows, 64 channels each) and
  encoder_kv as 32 heads of 128 rows over 512 tokens (encoder key and value rows), put the encoder tokens before the
  self tokens, scale queries and keys by one and the same f32 literal, and compute per head and query token the
  softmax-weighted average of the values: logits by a sum over the 64 channels, the row maximum from −∞, the
  exponentials of the shifted logits, their sum, the quotient, and a sum over the 2560 key tokens. The kernel does this
  one (head, 512-token tile) at a time on blocks staged in VMEM and rounds to bf16 before each matrix product; the
  reference does it on whole arrays. At the ideal instance a change of float format is the identity and every
  operation is exact, so entry by entry both are one function (`Cert.Attn.attn`, of the two reshaped arguments) and the
  result is its reshape to [2, 1024, 2048]. No algebraic law is needed beyond reading each side at an index: the two
  sides even multiply and add in the same order, so the precondition (finite inputs) is never opened.

  The frames: the kernel program's @main is two reshapes, the kernel region, one reshape. Three of the region's input
  windows read one array and two read another, so the arrays are dealt to the windows at disjoint shares of the full
  share; the run is proved once for any float instance and read at the word level for the printed kernel and at the
  ideal instance for its idealization. The ideal pass rewrote nothing, so the idealization is the printed text itself.
-/
import proofs.«165959_j7404523618828_2_alg».proof.Defs
import proofs.«165959_j7404523618828_2_alg».proof.Proof.Gen.Kernel
import proofs.«165959_j7404523618828_2_alg».proof.Proof.Gen.KernelIdeal
import proofs.«165959_j7404523618828_2_alg».proof.Proof.Gen.ReferenceIdeal
import proofs.«165959_j7404523618828_2_alg».proof.Proof.Gen.ReferenceIdeal.Run
import proofs.«165959_j7404523618828_2_alg».proof.Proof.Gen.ReferenceIdeal.Read
import proofs.«165959_j7404523618828_2_alg».proof.Proof.Gen.Pre_finite_inputs
import proofs.«165959_j7404523618828_2_alg».proof.Proof.KRun
import proofs.«165959_j7404523618828_2_alg».proof.Proof.KIValue
import proofs.«165959_j7404523618828_2_alg».proof.Proof.RefAttn
import Idealize.ShloMosaic.Adequacy
import Idealize.ShloMosaic.Init

noncomputable section

namespace Cert.Proof

open Idealize.ShloMosaic Idealize.ShloMosaic.TcCoe Idealize.SL.Sem

/-- The printed kernel runs to the end, faults nowhere, and leaves its arguments as launched. -/
theorem frame_k : Cert.frame_Kernel := fun m ρ _ =>
  (θ_run Cert.Kernel.defs _ _).mono (fun _ h c => (h c).2) (Cert.Kernel.Run.run_main (F := Bits) m ρ)

/-- So does its idealization. -/
theorem frame_ki : Cert.frame_KernelIdeal := fun m ρ _ =>
  (θ_run Cert.KernelIdeal.defs _ _).mono (fun _ h c => (h c).2) (Cert.KernelIdeal.Run.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result buffer ends at the reshape of the attention function of the reshaped
    arguments, and so does the reference's: its last stage is the reshape of the stage that, entry by entry, is that
    function of its own reshapes of the arguments, which agree with the kernel's. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  unfold Cert.ReferenceIdeal.Read.val_main_v26
  rw [Cert.Attn.Ref.ref_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
